-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v36_1)) (v1 : (c : Dev Cert.KernelIdeal.nD) → Buf (Elt Ideal) ((c.tc : Thread Cert.KernelIdeal.nD Cert.KernelIdeal.τ).loc Cert.KernelIdeal.main_v36_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36_1) = v0 c
          ∧ r.2.mem ((c.tc : Thread Cert.KernelIdeal.nD Cert.KernelIdeal.τ).loc Cert.KernelIdeal.main_v36_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x384 : Shape := ⟨2, ![50000, 384]⟩
abbrev S2x200000 : Shape := ⟨2, ![2, 200000]⟩
abbrev S200000 : Shape := ⟨1, ![200000]⟩
abbrev S384x384 : Shape := ⟨2, ![384, 384]⟩
abbrev S384 : Shape := ⟨1, ![384]⟩
abbrev S384x2 : Shape := ⟨2, ![384, 2]⟩
abbrev S2 : Shape := ⟨1, ![2]⟩
abbrev S_ : Shape := ⟨0, ![]⟩

class Facts : Prop where
  bcast_S_S50000x384 : S_.BroadcastsInDim S50000x384 (![] : Fin 0 → Fin S50000x384.rank)
  reducesTo_S50000x384_S_d0_1 : S50000x384.ReducesTo [0, 1] S_
  h_S_ : 0 < S_.numel
  bcast_S_S200000 : S_.BroadcastsInDim S200000 (![] : Fin 0 → Fin S200000.rank)
  reducesTo_S200000_S_d0 : S200000.ReducesTo [0] S_
  bcast_S_S384x384 : S_.BroadcastsInDim S384x384 (![] : Fin 0 → Fin S384x384.rank)
  reducesTo_S384x384_S_d0_1 : S384x384.ReducesTo [0, 1] S_
  bcast_S_S384 : S_.BroadcastsInDim S384 (![] : Fin 0 → Fin S384.rank)
  reducesTo_S384_S_d0 : S384.ReducesTo [0] S_
  bcast_S_S384x2 : S_.BroadcastsInDim S384x2 (![] : Fin 0 → Fin S384x2.rank)
  reducesTo_S384x2_S_d0_1 : S384x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S384x384 .f32) (main_arg9 : FVec F S384x2 .f32) (main_arg10 : FVec F S2 .f32) (main_v33 : IVec S_ 1) : IVec S_ 1 :=
  let main_v34 : FVec F S384x384 .f32 := Host.absf main_arg8
  let main_cst_12 : FVec F S_ .f32 := constant S_ .f32 0x7F800000#32
  let main_v35 : FVec F S384x384 .f32 := broadcastInDim S384x384 ![] bcast_S_S384x384 main_cst_12
  let main_v36 : IVec S384x384 1 := cmpf .olt main_v34 main_v35
  let main_c_13 : IVec S_ 1 := constantI S_ 1 1#1
  let main_v37 : IVec S_ 1 := (fun x v => Host.reduce IntOp.andi x v reducesTo_S384x384_S_d0_1 h_S_) main_v36 main_c_13
  let main_v38 : IVec S_ 1 := andi main_v33 main_v37
  let main_v39 : FVec F S384x2 .f32 := Host.absf main_arg9
  let main_cst_14 : FVec F S_ .f32 := constant S_ .f32 0x7F800000#32
  let main_v40 : FVec F S384x2 .f32 := broadcastInDim S384x2 ![] bcast_S_S384x2 main_cst_14
  let main_v41 : IVec S384x2 1 := cmpf .olt main_v39 main_v40
  let main_c_15 : IVec S_ 1 := constantI S_ 1 1#1
  let main_v42 : IVec S_ 1 := (fun x v => Host.reduce IntOp.andi x v reducesTo_S384x2_S_d0_1 h_S_) main_v41 main_c_15
  let main_v43 : IVec S_ 1 := andi main_v38 main_v42
  let main_v44 : FVec F S2 .f32 := Host.absf main_arg10
  let main_cst_16 : FVec F S_ .f32 := constant S_ .f32 0x7F800000#32
  let main_v45 : FVec F S2 .f32 := broadcastInDim S2 ![] bcast_S_S2 main_cst_16
  let main_v46 : IVec S2 1 := cmpf .olt main_v44 main_v45
  let main_c_17 : IVec S_ 1 := constantI S_ 1 1#1
  let main_v47 : IVec S_ 1 := (fun x v => Host.reduce IntOp.andi x v reducesTo_S2_S_d0 h_S_) main_v46 main_c_17
  let main_v48 : IVec S_ 1 := andi main_v43 main_v47
  main_v48

def fn_part1 {F : FTy → Type} [FloatOps F] (main_arg5 : FVec F S384x384 .f32) (main_arg6 : FVec F S384x384 .f32) (main_arg7 : FVec F S384 .f32) (main_arg8 : FVec F S384x384 .f32) (main_arg9 : FVec F S384x2 .f32) (main_arg10 : FVec F S2 .f32) (main_v13 : IVec S_ 1) (main_v16 : IVec S384 1) : IVec S_ 1 :=
  let main_c_5 : IVec S_ 1 := constantI S_ 1 1#1
  let main_v17 : IVec S_ 1 := (fun x v => Host.reduce IntOp.andi x v reducesTo_S384_S_d0 h_S_) main_v16 main_c_5
  let main_v18 : IVec S_ 1 := andi main_v13 main_v17
  let main_v19 : FVec F S384x384 .f32 := Host.absf main_arg5
  let main_cst_6 : FVec F S_ .f32 := constant S_ .f32 0x7F800000#32
  let main_v20 : FVec F S384x384 .f32 := broadcastInDim S384x384 ![] bcast_S_S384x384 main_cst_6
  let main_v21 : IVec S384x384 1 := cmpf .olt main_v19 main_v20
  let main_c_7 : IVec S_ 1 := constantI S_ 1 1#1
  let main_v22 : IVec S_ 1 := (fun x v => Host.reduce IntOp.andi x v reducesTo_S384x384_S_d0_1 h_S_) main_v21 main_c_7
  let main_v23 : IVec S_ 1 := andi main_v18 main_v22
  let main_v24 : FVec F S384x384 .f32 := Host.absf main_arg6
  let main_cst_8 : FVec F S_ .f32 := constant S_ .f32 0x7F800000#32
  let main_v25 : FVec F S384x384 .f32 := broadcastInDim S384x384 ![] bcast_S_S384x384 main_cst_8
  let main_v26 : IVec S384x384 1 := cmpf .olt main_v24 main_v25
  let main_c_9 : IVec S_ 1 := constantI S_ 1 1#1
  let main_v27 : IVec S_ 1 := (fun x v => Host.reduce IntOp.andi x v reducesTo_S384x384_S_d0_1 h_S_) main_v26 main_c_9
  let main_v28 : IVec S_ 1 := andi main_v23 main_v27
  let main_v29 : FVec F S384 .f32 := Host.absf main_arg7
  let main_cst_10 : FVec F S_ .f32 := constant S_ .f32 0x7F800000#32
  let main_v30 : FVec F S384 .f32 := broadcastInDim S384 ![] bcast_S_S384 main_cst_10
  let main_v31 : IVec S384 1 := cmpf .olt main_v29 main_v30
  let main_c_11 : IVec S_ 1 := constantI S_ 1 1#1
  let main_v32 : IVec S_ 1 := (fun x v => Host.reduce IntOp.andi x v reducesTo_S384_S_d0 h_S_) main_v31 main_c_11
  let main_v33 : IVec S_ 1 := andi main_v28 main_v32
  fn_part2 (F := F) main_arg8 main_arg9 main_arg10 main_v33

def fn {F : FTy → Type} [FloatOps F] (main_arg0 : FVec F S50000x384 .f32) (main_arg1 : IVec S2x200000 32) (main_arg2 : FVec F S200000 .f32) (main_arg3 : FVec F S384x384 .f32) (main_arg4 : FVec F S384 .f32) (main_arg5 : FVec F S384x384 .f32) (main_arg6 : FVec F S384x384 .f32) (main_arg7 : FVec F S384 .f32) (main_arg8 : FVec F S384x384 .f32) (main_arg9 : FVec F S384x2 .f32) (main_arg10 : FVec F S2 .f32) : IVec S_ 1 :=
  let main_v0 : FVec F S50000x384 .f32 := Host.absf main_arg0
  let main_cst : FVec F S_ .f32 := constant S_ .f32 0x7F800000#32
  let main_v1 : FVec F S50000x384 .f32 := broadcastInDim S50000x384 ![] bcast_S_S50000x384 main_cst
  let main_v2 : IVec S50000x384 1 := cmpf .olt main_v0 main_v1
  let main_c : IVec S_ 1 := constantI S_ 1 1#1
  let main_v3 : IVec S_ 1 := (fun x v => Host.reduce IntOp.andi x v reducesTo_S50000x384_S_d0_1 h_S_) main_v2 main_c
  let main_v4 : FVec F S200000 .f32 := Host.absf main_arg2
  let main_cst_0 : FVec F S_ .f32 := constant S_ .f32 0x7F800000#32
  let main_v5 : FVec F S200000 .f32 := broadcastInDim S200000 ![] bcast_S_S200000 main_cst_0
  let main_v6 : IVec S200000 1 := cmpf .olt main_v4 main_v5
  let main_c_1 : IVec S_ 1 := constantI S_ 1 1#1
  let main_v7 : IVec S_ 1 := (fun x v => Host.reduce IntOp.andi x v reducesTo_S200000_S_d0 h_S_) main_v6 main_c_1
  let main_v8 : IVec S_ 1 := andi main_v3 main_v7
  let main_v9 : FVec F S384x384 .f32 := Host.absf main_arg3
  let main_cst_2 : FVec F S_ .f32 := constant S_ .f32 0x7F800000#32
  let main_v10 : FVec F S384x384 .f32 := broadcastInDim S384x384 ![] bcast_S_S384x384 main_cst_2
  let main_v11 : IVec S384x384 1 := cmpf .olt main_v9 main_v10
  let main_c_3 : IVec S_ 1 := constantI S_ 1 1#1
  let main_v12 : IVec S_ 1 := (fun x v => Host.reduce IntOp.andi x v reducesTo_S384x384_S_d0_1 h_S_) main_v11 main_c_3
  let main_v13 : IVec S_ 1 := andi main_v8 main_v12
  let main_v14 : FVec F S384 .f32 := Host.absf main_arg4
  let main_cst_4 : FVec F S_ .f32 := constant S_ .f32 0x7F800000#32
  let main_v15 : FVec F S384 .f32 := broadcastInDim S384 ![] bcast_S_S384 main_cst_4
  let main_v16 : IVec S384 1 := cmpf .olt main_v14 main_v15
  fn_part1 (F := F) main_arg5 main_arg6 main_arg7 main_arg8 main_arg9 main_arg10 main_v13 main_v16
-- ==== Kernel.lean ====
abbrev S50000x384 : Shape := ⟨2, ![50000, 384]⟩
abbrev S2x200000 : Shape := ⟨2, ![2, 200000]⟩
abbrev S200000 : Shape := ⟨1, ![200000]⟩
abbrev S384x384 : Shape := ⟨2, ![384, 384]⟩
abbrev S384 : Shape := ⟨1, ![384]⟩
abbrev S384x2 : Shape := ⟨2, ![384, 2]⟩
abbrev S2 : Shape := ⟨1, ![2]⟩
abbrev S1x200000 : Shape := ⟨2, ![1, 200000]⟩
abbrev S_ : Shape := ⟨0, ![]⟩
abbrev S50000 : Shape := ⟨1, ![50000]⟩
abbrev S200000x1 : Shape := ⟨2, ![200000, 1]⟩
abbrev S50000x1 : Shape := ⟨2, ![50000, 1]⟩
abbrev S200000x384 : Shape := ⟨2, ![200000, 384]⟩
abbrev S2000x384 : Shape := ⟨2, ![2000, 384]⟩
abbrev S2000x1 : Shape := ⟨2, ![2000, 1]⟩
abbrev S1x384 : Shape := ⟨2, ![1, 384]⟩
abbrev S50000x2 : Shape := ⟨2, ![50000, 2]⟩
abbrev S2000x2 : Shape := ⟨2, ![2000, 2]⟩
abbrev S1x2 : Shape := ⟨2, ![1, 2]⟩

abbrev nBuf : Space → Nat
  | .hbm => 57
  | .vmem => 26
  | .smem => 0
  | _ => 0

abbrev bufTy : (tb : Table) → Fin (tcTables nBuf tb) → BufTy
  | .hbm, ⟨0, _⟩ => ⟨S50000x384, .f32⟩
  | .hbm, ⟨1, _⟩ => ⟨S2x200000, .i32⟩
  | .hbm, ⟨2, _⟩ => ⟨S200000, .f32⟩
  | .hbm, ⟨3, _⟩ => ⟨S384x384, .f32⟩
  | .hbm, ⟨4, _⟩ => ⟨S384, .f32⟩
  | .hbm, ⟨5, _⟩ => ⟨S384x384, .f32⟩
  | .hbm, ⟨6, _⟩ => ⟨S384x384, .f32⟩
  | .hbm, ⟨7, _⟩ => ⟨S384, .f32⟩
  | .hbm, ⟨8, _⟩ => ⟨S384x384, .f32⟩
  | .hbm, ⟨9, _⟩ => ⟨S384x2, .f32⟩
  | .hbm, ⟨10, _⟩ => ⟨S2, .f32⟩
  | .hbm, ⟨11, _⟩ => ⟨S1x200000, .i32⟩
  | .hbm, ⟨12, _⟩ => ⟨S200000, .i32⟩
  | .hbm, ⟨13, _⟩ => ⟨S1x200000, .i32⟩
  | .hbm, ⟨14, _⟩ => ⟨S200000, .i32⟩
  | .hbm, ⟨15, _⟩ => ⟨S_, .f32⟩
  | .hbm, ⟨16, _⟩ => ⟨S200000, .f32⟩
  | .hbm, ⟨17, _⟩ => ⟨S_, .f32⟩
  | .hbm, ⟨18, _⟩ => ⟨S50000, .f32⟩
  | .hbm, ⟨19, _⟩ => ⟨S200000x1, .i32⟩
  | .hbm, ⟨20, _⟩ => ⟨S50000, .f32⟩
  | .hbm, ⟨21, _⟩ => ⟨S50000x1, .f32⟩
  | .hbm, ⟨22, _⟩ => ⟨S_, .i32⟩
  | .hbm, ⟨23, _⟩ => ⟨S200000, .i32⟩
  | .hbm, ⟨24, _⟩ => ⟨S200000, .i1⟩
  | .hbm, ⟨25, _⟩ => ⟨S_, .i32⟩
  | .hbm, ⟨26, _⟩ => ⟨S200000, .i32⟩
  | .hbm, ⟨27, _⟩ => ⟨S200000, .i32⟩
  | .hbm, ⟨28, _⟩ => ⟨S200000, .i32⟩
  | .hbm, ⟨29, _⟩ => ⟨S200000x1, .i32⟩
  | .hbm, ⟨30, _⟩ => ⟨S200000x384, .f32⟩
  | .hbm, ⟨31, _⟩ => ⟨S200000x1, .f32⟩
  | .hbm, ⟨32, _⟩ => ⟨S200000x384, .f32⟩
  | .hbm, ⟨33, _⟩ => ⟨S200000x384, .f32⟩
  | .hbm, ⟨34, _⟩ => ⟨S_, .f32⟩
  | .hbm, ⟨35, _⟩ => ⟨S50000x384, .f32⟩
  | .hbm, ⟨36, _⟩ => ⟨S200000x1, .i32⟩
  | .hbm, ⟨37, _⟩ => ⟨S50000x384, .f32⟩
  | .hbm, ⟨38, _⟩ => ⟨S50000x384, .f32⟩
  | .hbm, ⟨39, _⟩ => ⟨S_, .i32⟩
  | .hbm, ⟨40, _⟩ => ⟨S200000, .i32⟩
  | .hbm, ⟨41, _⟩ => ⟨S200000, .i1⟩
  | .hbm, ⟨42, _⟩ => ⟨S_, .i32⟩
  | .hbm, ⟨43, _⟩ => ⟨S200000, .i32⟩
  | .hbm, ⟨44, _⟩ => ⟨S200000, .i32⟩
  | .hbm, ⟨45, _⟩ => ⟨S200000, .i32⟩
  | .hbm, ⟨46, _⟩ => ⟨S200000x1, .i32⟩
  | .hbm, ⟨47, _⟩ => ⟨S200000x384, .f32⟩
  | .hbm, ⟨48, _⟩ => ⟨S200000x1, .f32⟩
  | .hbm, ⟨49, _⟩ => ⟨S200000x384, .f32⟩
  | .hbm, ⟨50, _⟩ => ⟨S200000x384, .f32⟩
  | .hbm, ⟨51, _⟩ => ⟨S_, .f32⟩
  | .hbm, ⟨52, _⟩ => ⟨S50000x384, .f32⟩
  | .hbm, ⟨53, _⟩ => ⟨S200000x1, .i32⟩
  | .hbm, ⟨54, _⟩ => ⟨S50000x384, .f32⟩
  | .hbm, ⟨55, _⟩ => ⟨S50000x384, .f32⟩
  | .hbm, ⟨56, _⟩ => ⟨S50000x2, .f32⟩
  | .local _ .vmem, ⟨0, _⟩ => ⟨S2000x384, .f32⟩
  | .local _ .vmem, ⟨1, _⟩ => ⟨S2000x384, .f32⟩
  | .local _ .vmem, ⟨2, _⟩ => ⟨S2000x1, .f32⟩
  | .local _ .vmem, ⟨3, _⟩ => ⟨S2000x1, .f32⟩
  | .local _ .vmem, ⟨4, _⟩ => ⟨S2000x384, .f32⟩
  | .local _ .vmem, ⟨5, _⟩ => ⟨S2000x384, .f32⟩
  | .local _ .vmem, ⟨6, _⟩ => ⟨S384x384, .f32⟩
  | .local _ .vmem, ⟨7, _⟩ => ⟨S384, .f32⟩
  | .local _ .vmem, ⟨8, _⟩ => ⟨S384x384, .f32⟩
  | .local _ .vmem, ⟨9, _⟩ => ⟨S2000x384, .f32⟩
  | .local _ .vmem, ⟨10, _⟩ => ⟨S2000x384, .f32⟩
  | .local _ .vmem, ⟨11, _⟩ => ⟨S2000x384, .f32⟩
  | .local _ .vmem, ⟨12, _⟩ => ⟨S2000x384, .f32⟩
  | .local _ .vmem, ⟨13, _⟩ => ⟨S2000x1, .f32⟩
  | .local _ .vmem, ⟨14, _⟩ => ⟨S2000x1, .f32⟩
  | .local _ .vmem, ⟨15, _⟩ => ⟨S2000x384, .f32⟩
  | .local _ .vmem, ⟨16, _⟩ => ⟨S2000x384, .f32⟩
  | .local _ .vmem, ⟨17, _⟩ => ⟨S384x384, .f32⟩
  | .local _ .vmem, ⟨18, _⟩ => ⟨S384, .f32⟩
  | .local _ .vmem, ⟨19, _⟩ => ⟨S384x384, .f32⟩
  | .local _ .vmem, ⟨20, _⟩ => ⟨S384x2, .f32⟩
  | .local _ .vmem, ⟨21, _⟩ => ⟨S2, .f32⟩
  | .local _ .vmem, ⟨22, _⟩ => ⟨S2000x384, .f32⟩
  | .local _ .vmem, ⟨23, _⟩ => ⟨S2000x384, .f32⟩
  | .local _ .vmem, ⟨24, _⟩ => ⟨S2000x2, .f32⟩
  | .local _ .vmem, ⟨25, _⟩ => ⟨S2000x2, .f32⟩
  | _, _ => ⟨S50000x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_3 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36_0 : Ref sig .tc := ⟨.hbm, 55, rfl⟩
abbrev main_v36_1 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc1_stg9_0 : Ref sig .tc := ⟨.vmem, 24, rfl⟩
abbrev cc1_stg9_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23
abbrev cc1_sem9_0 : DmaSem sig := 24
abbrev cc1_sem9_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S384x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x384 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S384x384 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S384 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S384x384 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S384x2 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S2 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x384 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S2000x2 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S_S50000 : S_.BroadcastsInDim S50000 (![] : Fin 0 → Fin S50000.rank)
  bcast_S200000_S200000x1_0 : S200000.BroadcastsInDim S200000x1 (![0] : Fin 1 → Fin S200000x1.rank)
  shapeCasts_S50000_S50000x1 : S50000.ShapeCasts S50000x1
  bcast_S200000x1_S200000x384_0_1 : S200000x1.BroadcastsInDim S200000x384 (![0, 1] : Fin 2 → Fin S200000x384.rank)
  bcast_S_S50000x384 : S_.BroadcastsInDim S50000x384 (![] : Fin 0 → Fin S50000x384.rank)
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x384_S2000x384_0_0 : ∀ a, (![0, 0] : Fin 2 → Nat) a + S2000x384.size a ≤ S2000x384.size a
  h_S2000x384 : 0 < S2000x384.numel
  shapeCasts_S2000x384_S2000x384 : S2000x384.ShapeCasts S2000x384
  broadcasts_S2000x1_S2000x384 : S2000x1.Broadcasts S2000x384
  bitsLt_bf16_f32 : FTy.bits .bf16 < FTy.bits .f32
  inb_S384x384_S384x384_0_0 : ∀ a, (![0, 0] : Fin 2 → Nat) a + S384x384.size a ≤ S384x384.size a
  h_S384x384 : 0 < S384x384.numel
  inb_S384_S384_0 : ∀ a, (![0] : Fin 1 → Nat) a + S384.size a ≤ S384.size a
  h_S384 : 0 < S384.numel
  shapeCasts_S384_S1x384 : S384.ShapeCasts S1x384
  broadcasts_S1x384_S2000x384 : S1x384.Broadcasts S2000x384
  inb_S384x2_S384x2_0_0 : ∀ a, (![0, 0] : Fin 2 → Nat) a + S384x2.size a ≤ S384x2.size a
  h_S384x2 : 0 < S384x2.numel
  inb_S2_S2_0 : ∀ a, (![0] : Fin 1 → Nat) a + S2.size a ≤ S2.size a
  h_S2 : 0 < S2.numel
  shapeCasts_S2_S1x2 : S2.ShapeCasts S1x2
  broadcasts_S1x2_S2000x2 : S1x2.Broadcasts S2000x2
  inb_S2000x2_S2000x2_0_0 : ∀ a, (![0, 0] : Fin 2 → Nat) a + S2000x2.size a ≤ S2000x2.size a
  h_S2000x2 : 0 < S2000x2.numel
  scatter_S50000_S200000x1_S200000_n_0_0_1_wf : ScatterDims.WF S50000 S200000x1 S200000 [] [0] [0] 1
  gather_S50000x384_S200000x1_S200000x384_1_0_n_n_0_1_1384_wf : GatherDims.WF S50000x384 S200000x1 S200000x384 [1] [0] [] [0] [] 1 ![1, 384]
  scatter_S50000x384_S200000x1_S200000x384_1_0_0_1_wf : ScatterDims.WF S50000x384 S200000x1 S200000x384 [1] [0] [0] 1
  dot_S2000x384_S384x384_S2000x384_1_0_0_1_n_n_wf : DotDims.WF S2000x384 S384x384 S2000x384 [1] [0] [0] [1] [] []
  dot_S2000x384_S384x2_S2000x2_1_0_0_1_n_n_wf : DotDims.WF S2000x384 S384x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x384.size a ≤ S50000x384.size a
  hwx0_0 : ∀ i : grid0.Coords, EltTy.bits .f32 = 32 ∨ (Rect.block (s := S50000x384) S2000x384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x384.size a ≤ S50000x384.size a
  hwx0_2 : ∀ i : grid0.Coords, EltTy.bits .f32 = 32 ∨ (Rect.block (s := S50000x384) S2000x384.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x384.size a ≤ S384x384.size a
  hwx0_3 : ∀ i : grid0.Coords, EltTy.bits .f32 = 32 ∨ (Rect.block (s := S384x384) S384x384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S384.size a ≤ S384.size a
  hwx0_4 : ∀ i : grid0.Coords, EltTy.bits .f32 = 32 ∨ (Rect.block (s := S384) S384.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S384x384.size a ≤ S384x384.size a
  hwx0_5 : ∀ i : grid0.Coords, EltTy.bits .f32 = 32 ∨ (Rect.block (s := S384x384) S384x384.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x384.size a ≤ S50000x384.size a
  hwx0_6 : ∀ i : grid0.Coords, EltTy.bits .f32 = 32 ∨ (Rect.block (s := S50000x384) S2000x384.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x384.size a ≤ S50000x384.size a
  hwx1_0 : ∀ i : grid1.Coords, EltTy.bits .f32 = 32 ∨ (Rect.block (s := S50000x384) S2000x384.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x384.size a ≤ S50000x384.size a
  hwx1_2 : ∀ i : grid1.Coords, EltTy.bits .f32 = 32 ∨ (Rect.block (s := S50000x384) S2000x384.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S384x384.size a ≤ S384x384.size a
  hwx1_3 : ∀ i : grid1.Coords, EltTy.bits .f32 = 32 ∨ (Rect.block (s := S384x384) S384x384.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S384.size a ≤ S384.size a
  hwx1_4 : ∀ i : grid1.Coords, EltTy.bits .f32 = 32 ∨ (Rect.block (s := S384) S384.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S384x384.size a ≤ S384x384.size a
  hwx1_5 : ∀ i : grid1.Coords, EltTy.bits .f32 = 32 ∨ (Rect.block (s := S384x384) S384x384.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S384x2.size a ≤ S384x2.size a
  hwx1_6 : ∀ i : grid1.Coords, EltTy.bits .f32 = 32 ∨ (Rect.block (s := S384x2) S384x2.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S2.size a ≤ S2.size a
  hwx1_7 : ∀ i : grid1.Coords, EltTy.bits .f32 = 32 ∨ (Rect.block (s := S2) S2.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x384.size a ≤ S50000x384.size a
  hwx1_8 : ∀ i : grid1.Coords, EltTy.bits .f32 = 32 ∨ (Rect.block (s := S50000x384) S2000x384.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x2.size a ≤ S50000x2.size a
  hwx1_9 : ∀ i : grid1.Coords, EltTy.bits .f32 = 32 ∨ (Rect.block (s := S50000x2) S2000x2.size (cc1_transform_9 i) (hinb1_9 i)).WholeWords (EltTy.packing .f32)

variable [Facts₀]

def scatter_S50000_S200000x1_S200000_n_0_0_1 : ScatterDims S50000 S200000x1 S200000 where
  updateWindowDims := []
  insertedWindowDims := [0]
  scatterDimsToOperandDims := [0]
  indexVectorDim := 1
  wf := scatter_S50000_S200000x1_S200000_n_0_0_1_wf
def gather_S50000x384_S200000x1_S200000x384_1_0_n_n_0_1_1384 : GatherDims S50000x384 S200000x1 S200000x384 where
  offsetDims := [1]
  collapsedSliceDims := [0]
  operandBatchingDims := []
  startIndicesBatchingDims := []
  startIndexMap := [0]
  indexVectorDim := 1
  sliceSizes := ![1, 384]
  wf := gather_S50000x384_S200000x1_S200000x384_1_0_n_n_0_1_1384_wf
def scatter_S50000x384_S200000x1_S200000x384_1_0_0_1 : ScatterDims S50000x384 S200000x1 S200000x384 where
  updateWindowDims := [1]
  insertedWindowDims := [0]
  scatterDimsToOperandDims := [0]
  indexVectorDim := 1
  wf := scatter_S50000x384_S200000x1_S200000x384_1_0_0_1_wf
def dot_S2000x384_S384x384_S2000x384_1_0_0_1_n_n : DotDims S2000x384 S384x384 S2000x384 where
  lhsContracting := [1]
  rhsContracting := [0]
  lhsNonContracting := [0]
  rhsNonContracting := [1]
  lhsBatch := []
  rhsBatch := []
  wf := dot_S2000x384_S384x384_S2000x384_1_0_0_1_n_n_wf
def dot_S2000x384_S384x2_S2000x2_1_0_0_1_n_n : DotDims S2000x384 S384x2 S2000x2 where
  lhsContracting := [1]
  rhsContracting := [0]
  lhsNonContracting := [0]
  rhsNonContracting := [1]
  lhsBatch := []
  rhsBatch := []
  wf := dot_S2000x384_S384x2_S2000x2_1_0_0_1_n_n_wf

abbrev win0_0 : Pipeline.Window sig grid0 :=
  Pipeline.Window.ofSpec (Memref.whole main_v21) S2000x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x384.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S384x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S384x384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S2000x384.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v35) S2000x384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S2000x384.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S384x384.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S384.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S384x384.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S384x2.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg10) S2.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v36_0) S2000x384.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v36_1) S2000x2.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S50000x384 : Shape := ⟨2, ![50000, 384]⟩
abbrev S2x200000 : Shape := ⟨2, ![2, 200000]⟩
abbrev S200000 : Shape := ⟨1, ![200000]⟩
abbrev S384x384 : Shape := ⟨2, ![384, 384]⟩
abbrev S384 : Shape := ⟨1, ![384]⟩
abbrev S384x2 : Shape := ⟨2, ![384, 2]⟩
abbrev S2 : Shape := ⟨1, ![2]⟩
abbrev S1x200000 : Shape := ⟨2, ![1, 200000]⟩
abbrev S_ : Shape := ⟨0, ![]⟩
abbrev S200000x1 : Shape := ⟨2, ![200000, 1]⟩
abbrev S200000x384 : Shape := ⟨2, ![200000, 384]⟩
abbrev S50000 : Shape := ⟨1, ![50000]⟩
abbrev S50000x1 : Shape := ⟨2, ![50000, 1]⟩
abbrev S1x384 : Shape := ⟨2, ![1, 384]⟩
abbrev S50000x2 : Shape := ⟨2, ![50000, 2]⟩
abbrev S1x2 : Shape := ⟨2, ![1, 2]⟩

abbrev nBuf : Space → Nat
  | .hbm => 105
  | .vmem => 0
  | .smem => 0
  | _ => 0

abbrev bufTy : (tb : Table) → Fin (tcTables nBuf tb) → BufTy
  | .hbm, ⟨0, _⟩ => ⟨S50000x384, .f32⟩
  | .hbm, ⟨1, _⟩ => ⟨S2x200000, .i32⟩
  | .hbm, ⟨2, _⟩ => ⟨S200000, .f32⟩
  | .hbm, ⟨3, _⟩ => ⟨S384x384, .f32⟩
  | .hbm, ⟨4, _⟩ => ⟨S384, .f32⟩
  | .hbm, ⟨5, _⟩ => ⟨S384x384, .f32⟩
  | .hbm, ⟨6, _⟩ => ⟨S384x384, .f32⟩
  | .hbm, ⟨7, _⟩ => ⟨S384, .f32⟩
  | .hbm, ⟨8, _⟩ => ⟨S384x384, .f32⟩
  | .hbm, ⟨9, _⟩ => ⟨S384x2, .f32⟩
  | .hbm, ⟨10, _⟩ => ⟨S2, .f32⟩
  | .hbm, ⟨11, _⟩ => ⟨S1x200000, .i32⟩
  | .hbm, ⟨12, _⟩ => ⟨S200000, .i32⟩
  | .hbm, ⟨13, _⟩ => ⟨S1x200000, .i32⟩
  | .hbm, ⟨14, _⟩ => ⟨S200000, .i32⟩
  | .hbm, ⟨15, _⟩ => ⟨S_, .i32⟩
  | .hbm, ⟨16, _⟩ => ⟨S200000, .i32⟩
  | .hbm, ⟨17, _⟩ => ⟨S200000, .i1⟩
  | .hbm, ⟨18, _⟩ => ⟨S_, .i32⟩
  | .hbm, ⟨19, _⟩ => ⟨S200000, .i32⟩
  | .hbm, ⟨20, _⟩ => ⟨S200000, .i32⟩
  | .hbm, ⟨21, _⟩ => ⟨S200000, .i32⟩
  | .hbm, ⟨22, _⟩ => ⟨S200000x1, .i32⟩
  | .hbm, ⟨23, _⟩ => ⟨S200000x384, .f32⟩
  | .hbm, ⟨24, _⟩ => ⟨S200000x1, .f32⟩
  | .hbm, ⟨25, _⟩ => ⟨S200000x384, .f32⟩
  | .hbm, ⟨26, _⟩ => ⟨S200000x384, .f32⟩
  | .hbm, ⟨27, _⟩ => ⟨S_, .f32⟩
  | .hbm, ⟨28, _⟩ => ⟨S50000x384, .f32⟩
  | .hbm, ⟨29, _⟩ => ⟨S200000x1, .i32⟩
  | .hbm, ⟨30, _⟩ => ⟨S50000x384, .f32⟩
  | .hbm, ⟨31, _⟩ => ⟨S_, .f32⟩
  | .hbm, ⟨32, _⟩ => ⟨S200000, .f32⟩
  | .hbm, ⟨33, _⟩ => ⟨S_, .f32⟩
  | .hbm, ⟨34, _⟩ => ⟨S50000, .f32⟩
  | .hbm, ⟨35, _⟩ => ⟨S200000x1, .i32⟩
  | .hbm, ⟨36, _⟩ => ⟨S50000, .f32⟩
  | .hbm, ⟨37, _⟩ => ⟨S_, .f32⟩
  | .hbm, ⟨38, _⟩ => ⟨S50000, .f32⟩
  | .hbm, ⟨39, _⟩ => ⟨S50000, .f32⟩
  | .hbm, ⟨40, _⟩ => ⟨S50000x1, .f32⟩
  | .hbm, ⟨41, _⟩ => ⟨S50000x384, .f32⟩
  | .hbm, ⟨42, _⟩ => ⟨S50000x384, .f32⟩
  | .hbm, ⟨43, _⟩ => ⟨S50000x384, .f32⟩
  | .hbm, ⟨44, _⟩ => ⟨S1x384, .f32⟩
  | .hbm, ⟨45, _⟩ => ⟨S50000x384, .f32⟩
  | .hbm, ⟨46, _⟩ => ⟨S50000x384, .f32⟩
  | .hbm, ⟨47, _⟩ => ⟨S50000x384, .f32⟩
  | .hbm, ⟨48, _⟩ => ⟨S50000x384, .f32⟩
  | .hbm, ⟨49, _⟩ => ⟨S_, .f32⟩
  | .hbm, ⟨50, _⟩ => ⟨S50000x384, .f32⟩
  | .hbm, ⟨51, _⟩ => ⟨S50000x384, .f32⟩
  | .hbm, ⟨52, _⟩ => ⟨S1x200000, .i32⟩
  | .hbm, ⟨53, _⟩ => ⟨S200000, .i32⟩
  | .hbm, ⟨54, _⟩ => ⟨S1x200000, .i32⟩
  | .hbm, ⟨55, _⟩ => ⟨S200000, .i32⟩
  | .hbm, ⟨56, _⟩ => ⟨S_, .i32⟩
  | .hbm, ⟨57, _⟩ => ⟨S200000, .i32⟩
  | .hbm, ⟨58, _⟩ => ⟨S200000, .i1⟩
  | .hbm, ⟨59, _⟩ => ⟨S_, .i32⟩
  | .hbm, ⟨60, _⟩ => ⟨S200000, .i32⟩
  | .hbm, ⟨61, _⟩ => ⟨S200000, .i32⟩
  | .hbm, ⟨62, _⟩ => ⟨S200000, .i32⟩
  | .hbm, ⟨63, _⟩ => ⟨S200000x1, .i32⟩
  | .hbm, ⟨64, _⟩ => ⟨S200000x384, .f32⟩
  | .hbm, ⟨65, _⟩ => ⟨S200000x1, .f32⟩
  | .hbm, ⟨66, _⟩ => ⟨S200000x384, .f32⟩
  | .hbm, ⟨67, _⟩ => ⟨S200000x384, .f32⟩
  | .hbm, ⟨68, _⟩ => ⟨S_, .f32⟩
  | .hbm, ⟨69, _⟩ => ⟨S50000x384, .f32⟩
  | .hbm, ⟨70, _⟩ => ⟨S200000x1, .i32⟩
  | .hbm, ⟨71, _⟩ => ⟨S50000x384, .f32⟩
  | .hbm, ⟨72, _⟩ => ⟨S_, .f32⟩
  | .hbm, ⟨73, _⟩ => ⟨S200000, .f32⟩
  | .hbm, ⟨74, _⟩ => ⟨S_, .f32⟩
  | .hbm, ⟨75, _⟩ => ⟨S50000, .f32⟩
  | .hbm, ⟨76, _⟩ => ⟨S200000x1, .i32⟩
  | .hbm, ⟨77, _⟩ => ⟨S50000, .f32⟩
  | .hbm, ⟨78, _⟩ => ⟨S_, .f32⟩
  | .hbm, ⟨79, _⟩ => ⟨S50000, .f32⟩
  | .hbm, ⟨80, _⟩ => ⟨S50000, .f32⟩
  | .hbm, ⟨81, _⟩ => ⟨S50000x1, .f32⟩
  | .hbm, ⟨82, _⟩ => ⟨S50000x384, .f32⟩
  | .hbm, ⟨83, _⟩ => ⟨S50000x384, .f32⟩
  | .hbm, ⟨84, _⟩ => ⟨S50000x384, .f32⟩
  | .hbm, ⟨85, _⟩ => ⟨S1x384, .f32⟩
  | .hbm, ⟨86, _⟩ => ⟨S50000x384, .f32⟩
  | .hbm, ⟨87, _⟩ => ⟨S50000x384, .f32⟩
  | .hbm, ⟨88, _⟩ => ⟨S50000x384, .f32⟩
  | .hbm, ⟨89, _⟩ => ⟨S50000x384, .f32⟩
  | .hbm, ⟨90, _⟩ => ⟨S_, .f32⟩
  | .hbm, ⟨91, _⟩ => ⟨S50000x384, .f32⟩
  | .hbm, ⟨92, _⟩ => ⟨S50000x384, .f32⟩
  | .hbm, ⟨93, _⟩ => ⟨S50000x2, .f32⟩
  | .hbm, ⟨94, _⟩ => ⟨S1x2, .f32⟩
  | .hbm, ⟨95, _⟩ => ⟨S50000x2, .f32⟩
  | .hbm, ⟨96, _⟩ => ⟨S50000x2, .f32⟩
  | .hbm, ⟨97, _⟩ => ⟨S50000x2, .f32⟩
  | .hbm, ⟨98, _⟩ => ⟨S50000x2, .f32⟩
  | .hbm, ⟨99, _⟩ => ⟨S_, .f32⟩
  | .hbm, ⟨100, _⟩ => ⟨S50000x2, .f32⟩
  | .hbm, ⟨101, _⟩ => ⟨S50000x2, .f32⟩
  | .hbm, ⟨102, _⟩ => ⟨S_, .f32⟩
  | .hbm, ⟨103, _⟩ => ⟨S50000x2, .f32⟩
  | .hbm, ⟨104, _⟩ => ⟨S50000x2, .f32⟩
  | _, _ => ⟨S50000x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_call0_cst : Ref sig .tc := ⟨.hbm, 49, rfl⟩
abbrev main_call0_v0 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_4 : Ref sig .tc := ⟨.hbm, 56, rfl⟩
abbrev main_v37 : Ref sig .tc := ⟨.hbm, 57, rfl⟩
abbrev main_v38 : Ref sig .tc := ⟨.hbm, 58, rfl⟩
abbrev main_c_5 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_6 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_7 : Ref sig .tc := ⟨.hbm, 72, rfl⟩
abbrev main_v50 : Ref sig .tc := ⟨.hbm, 73, rfl⟩
abbrev main_cst_8 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_9 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_call1_cst : Ref sig .tc := ⟨.hbm, 90, rfl⟩
abbrev main_call1_v0 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_10 : Ref sig .tc := ⟨.hbm, 99, rfl⟩
abbrev main_v72 : Ref sig .tc := ⟨.hbm, 100, rfl⟩
abbrev main_v73 : Ref sig .tc := ⟨.hbm, 101, rfl⟩
abbrev main_cst_11 : Ref sig .tc := ⟨.hbm, 102, rfl⟩
abbrev main_v74 : Ref sig .tc := ⟨.hbm, 103, rfl⟩
abbrev main_v75 : Ref sig .tc := ⟨.hbm, 104, rfl⟩

abbrev nD : Nat := 1
abbrev τ : Topo := Topo.v7x

variable {F : FTy → Type} [FloatOps F]

class Facts₀ : Prop where
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x384_0_1 : S200000x1.BroadcastsInDim S200000x384 (![0, 1] : Fin 2 → Fin S200000x384.rank)
  bcast_S_S50000x384 : S_.BroadcastsInDim S50000x384 (![] : Fin 0 → Fin S50000x384.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x384_0_1 : S50000x1.BroadcastsInDim S50000x384 (![0, 1] : Fin 2 → Fin S50000x384.rank)
  bcast_S384_S1x384_1 : S384.BroadcastsInDim S1x384 (![1] : Fin 1 → Fin S1x384.rank)
  bcast_S1x384_S50000x384_0_1 : S1x384.BroadcastsInDim S50000x384 (![0, 1] : Fin 2 → Fin S50000x384.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  bcast_S_S50000x2 : S_.BroadcastsInDim S50000x2 (![] : Fin 0 → Fin S50000x2.rank)
  gather_S50000x384_S200000x1_S200000x384_1_0_n_n_0_1_1384_wf : GatherDims.WF S50000x384 S200000x1 S200000x384 [1] [0] [] [0] [] 1 ![1, 384]
  scatter_S50000x384_S200000x1_S200000x384_1_0_0_1_wf : ScatterDims.WF S50000x384 S200000x1 S200000x384 [1] [0] [0] 1
  scatter_S50000_S200000x1_S200000_n_0_0_1_wf : ScatterDims.WF S50000 S200000x1 S200000 [] [0] [0] 1
  dot_S50000x384_S384x384_S50000x384_1_0_0_1_n_n_wf : DotDims.WF S50000x384 S384x384 S50000x384 [1] [0] [0] [1] [] []
  dot_S50000x384_S384x2_S50000x2_1_0_0_1_n_n_wf : DotDims.WF S50000x384 S384x2 S50000x2 [1] [0] [0] [1] [] []

variable [Facts₀]

def gather_S50000x384_S200000x1_S200000x384_1_0_n_n_0_1_1384 : GatherDims S50000x384 S200000x1 S200000x384 where
  offsetDims := [1]
  collapsedSliceDims := [0]
  operandBatchingDims := []
  startIndicesBatchingDims := []
  startIndexMap := [0]
  indexVectorDim := 1
  sliceSizes := ![1, 384]
  wf := gather_S50000x384_S200000x1_S200000x384_1_0_n_n_0_1_1384_wf
def scatter_S50000x384_S200000x1_S200000x384_1_0_0_1 : ScatterDims S50000x384 S200000x1 S200000x384 where
  updateWindowDims := [1]
  insertedWindowDims := [0]
  scatterDimsToOperandDims := [0]
  indexVectorDim := 1
  wf := scatter_S50000x384_S200000x1_S200000x384_1_0_0_1_wf
def scatter_S50000_S200000x1_S200000_n_0_0_1 : ScatterDims S50000 S200000x1 S200000 where
  updateWindowDims := []
  insertedWindowDims := [0]
  scatterDimsToOperandDims := [0]
  indexVectorDim := 1
  wf := scatter_S50000_S200000x1_S200000_n_0_0_1_wf
def dot_S50000x384_S384x384_S50000x384_1_0_0_1_n_n : DotDims S50000x384 S384x384 S50000x384 where
  lhsContracting := [1]
  rhsContracting := [0]
  lhsNonContracting := [0]
  rhsNonContracting := [1]
  lhsBatch := []
  rhsBatch := []
  wf := dot_S50000x384_S384x384_S50000x384_1_0_0_1_n_n_wf
def dot_S50000x384_S384x2_S50000x2_1_0_0_1_n_n : DotDims S50000x384 S384x2 S50000x2 where
  lhsContracting := [1]
  rhsContracting := [0]
  lhsNonContracting := [0]
  rhsNonContracting := [1]
  lhsBatch := []
  rhsBatch := []
  wf := dot_S50000x384_S384x2_S50000x2_1_0_0_1_n_n_wf

class Facts : Prop extends Facts₀ where

variable [Facts]
-- ==== Proof.Spec.lean ====
/-
  The mathematics of a two-layer graph convolution with mean aggregation and a sigmoid head, entry by entry, on
  the extended reals.

  A node `r` carries a feature row `x r`, the sum `s r` of the weighted feature rows sent to it along its incoming
  edges, and the number `n r` of those edges. One layer sends node `r` to

      relu ( (s r / max (n r) 1) · W_rel + b + x r · W_root ),

  and the head sends a feature row `y r` to `sigmoid (y r · W_lin + b_lin)`.
  The mean may be taken by dividing the summed row by `max (n r) 1` or by multiplying it with the reciprocal
  `1 / max (n r) 1`: `max n 1` is never zero, so both are the product with its inverse, on every extended real.
-/
import Idealize.ShloMosaic.PureOps.Ideal
import Idealize.ShloMosaic.Lib.ValueIdx
import Idealize.ShloMosaic.Lib.IdealHost

noncomputable section

namespace Cert.GraphConv

open Idealize.ShloMosaic Idealize.ShloMosaic.ValueIdx

/-- The float word of `1.0`. -/
abbrev one : EReal := Ideal.ofBits .f32 0x3F800000#32
/-- The float word of `0.0`. -/
abbrev zero : EReal := Ideal.ofBits .f32 0x00000000#32

/-- `max n 1` is positive, hence not zero, whatever the extended real `n`. -/
theorem max_one_ne_zero (n : EReal) : max n one ≠ 0 := by
  have h1 : one = 1 := Ideal.ofBits_one_f32
  rw [h1]
  exact ne_of_gt (lt_max_of_lt_right zero_lt_one)

/-- The product with the reciprocal of `max n 1` is the quotient by `max n 1`: both are the product with the
    inverse, the divisor being nonzero. No finiteness of `s` or `n` is needed. -/
theorem mul_recip_eq_div (s n : EReal) : s * Ideal.div one (max n one) = Ideal.div s (max n one) := by
  have h := max_one_ne_zero n
  rw [Ideal.div, Ideal.div, if_neg h, if_neg h]
  have h1 : one = 1 := Ideal.ofBits_one_f32
  rw [h1, one_mul]

variable {D O : ℕ}

/-- Entry `j` of one layer's output row at a node with summed incoming row `srow`, incoming-edge count `n` and own
    feature row `xrow`: `relu ((srow / max n 1) · W_rel + b + xrow · W_root)`. -/
def convEntry (srow : Fin D → EReal) (n : EReal) (xrow : Fin D → EReal)
    (Wrel : (⟨2, ![D, D]⟩ : Shape).Idx → EReal) (b : (⟨1, ![D]⟩ : Shape).Idx → EReal)
    (Wroot : (⟨2, ![D, D]⟩ : Shape).Idx → EReal) (j : Fin D) : EReal :=
  max ((∑ k : Fin D, Ideal.div (srow k) (max n one) * Wrel (ix2 k j)) + b (ix1 j)
        + ∑ k : Fin D, xrow k * Wroot (ix2 k j)) zero

/-- Entry `o` of the head's output row at a node with feature row `yrow`: `sigmoid (yrow · W_lin + b_lin)`. -/
def headEntry (yrow : Fin D → EReal) (Wlin : (⟨2, ![D, O]⟩ : Shape).Idx → EReal)
    (blin : (⟨1, ![O]⟩ : Shape).Idx → EReal) (o : Fin O) : EReal :=
  Ideal.logistic ((∑ k : Fin D, yrow k * Wlin (ix2 k o)) + blin (ix1 o))

/-- The sigmoid spelt out with the float word of one, `1 / (1 + e^(-z))`, is the sigmoid. -/
theorem logistic_spelt (z : EReal) : Ideal.div one (one + Ideal.exp (-z)) = Ideal.logistic z := by
  have h1 : one = 1 := Ideal.ofBits_one_f32
  rw [h1]; rfl

variable {N : ℕ}

/-- One layer on whole arrays: node `i 0`, feature `i 1`. The count is given per node. -/
def conv (s : (⟨2, ![N, D]⟩ : Shape).Idx → EReal) (n : (⟨1, ![N]⟩ : Shape).Idx → EReal)
    (x : (⟨2, ![N, D]⟩ : Shape).Idx → EReal) (Wrel : (⟨2, ![D, D]⟩ : Shape).Idx → EReal)
    (b : (⟨1, ![D]⟩ : Shape).Idx → EReal) (Wroot : (⟨2, ![D, D]⟩ : Shape).Idx → EReal) :
    (⟨2, ![N, D]⟩ : Shape).Idx → EReal :=
  fun i => convEntry (fun k => s (ix2 (i 0) k)) (n (ix1 (i 0))) (fun k => x (ix2 (i 0) k)) Wrel b Wroot (i 1)

/-- The head on whole arrays: node `i 0`, class `i 1`. -/
def head (y : (⟨2, ![N, D]⟩ : Shape).Idx → EReal) (Wlin : (⟨2, ![D, O]⟩ : Shape).Idx → EReal)
    (blin : (⟨1, ![O]⟩ : Shape).Idx → EReal) : (⟨2, ![N, O]⟩ : Shape).Idx → EReal :=
  fun i => headEntry (fun k => y (ix2 (i 0) k)) Wlin blin (i 1)

end Cert.GraphConv

end
-- ==== Proof.LibPlain.lean ====
/-
  A plain matrix product and a row maximum, read at coordinates, at the extended reals.

  A product of an `M × K` by a `K × N` matrix with the standard dimension numbers — contract the left operand's
  axis 1 with the right operand's axis 0, no batch axis — is, at `(a, b)`, the sum over `c` of the entries
  `(a, c)` and `(c, b)`: for a product accumulated into a zero array and for the host's product alike, whatever
  record carries the dimension numbers, as long as it is the standard one.
  The maximum over the last axis of an `a × b` array, started from `-∞`, is at row `p` the fold of `max` from `⊥`
  over the row's entries.
-/
import Idealize.ShloMosaic.Lib.StackMember
import Idealize.ShloMosaic.Lib.KernelVsHost
import Idealize.ShloMosaic.PureOps.Ideal.Laws
import Idealize.ShloMosaic.Lib.ValueIdx

noncomputable section

namespace Cert.LibPlain

open Idealize.ShloMosaic Idealize.ShloMosaic.ValueIdx

/-- The host's product with the standard dimension numbers, at `(a, b)`: `∑ c, A (a, c) * B (c, b)`. -/
theorem dotGeneral_apply {M K N : ℕ} {φ₁ φ₂ : FTy} (d : DotDims ⟨2, ![M, K]⟩ ⟨2, ![K, N]⟩ ⟨2, ![M, N]⟩)
    (hd : d = DotDims.plain M K N) (prec : Option ContractPrecision)
    (A : FVec Ideal ⟨2, ![M, K]⟩ φ₁) (B : FVec Ideal ⟨2, ![K, N]⟩ φ₂) (a : Fin M) (b : Fin N) :
    Host.dotGeneral d prec A B (ix2 a b) = ∑ c : Fin K, A (ix2 a c) * B (ix2 c b) := by
  subst hd
  exact StackMember.dotGeneral_plain_apply prec A B a b

/-- A product accumulated into the zero array, with the standard dimension numbers, at `(a, b)`: the same sum
    (`0 + s = s` holds for every extended real `s`). -/
theorem matmul_zero_apply {M K N : ℕ} {φ₁ φ₂ : FTy} (d : DotDims ⟨2, ![M, K]⟩ ⟨2, ![K, N]⟩ ⟨2, ![M, N]⟩)
    (hd : d = DotDims.plain M K N) (prec : Option ContractPrecision)
    (A : FVec Ideal ⟨2, ![M, K]⟩ φ₁) (B : FVec Ideal ⟨2, ![K, N]⟩ φ₂) (a : Fin M) (b : Fin N) :
    matmul d prec A B (constant (F := Ideal) ⟨2, ![M, N]⟩ .f32 0x00000000#32) (ix2 a b)
      = ∑ c : Fin K, A (ix2 a c) * B (ix2 c b) := by
  rw [matmul_zero_eq_dotGeneral]
  exact dotGeneral_apply d hd prec A B a b

/-- The bit pattern of `-∞` in f32 denotes `⊥`. -/
theorem ofBits_neg_inf_f32 : Ideal.ofBits .f32 0xFF800000#32 = ⊥ := by simp [Ideal.ofBits, Ideal.ieee]

/-- The maximum over the last axis of an `a × b` array from `-∞`, at row `p`: the fold of `max` from `⊥` over the
    entries `(p, k)` of the row. -/
theorem rowMax_apply {a b : ℕ} (src : FVec Ideal (⟨2, ![a, b]⟩ : Shape) .f32)
    (h : (⟨2, ![a, b]⟩ : Shape).Reduces [(1 : Fin 2)] ⟨1, ![a]⟩) (hφ : FKind.Formats .f32)
    (hacc : (0xFF800000#32 : BitVec 32) = FKind.maximumf.neutral .f32 hφ) (p : Fin a) :
    multiReduction .maximumf [(1 : Fin 2)] ⟨1, ![a]⟩ src 0xFF800000#32 h hφ hacc (ix1 p)
      = (Finset.univ : Finset (Fin b)).fold max ⊥ (fun k => src (ix2 p k)) := by
  rw [Ideal.multiReduction_maximumf_single src 0xFF800000#32 h hφ hacc (ix1 p)]
  show (Finset.univ : Finset (Fin b)).fold max (Ideal.ofBits .f32 0xFF800000#32) _ = _
  rw [ofBits_neg_inf_f32]
  refine congrArg (Finset.fold max ⊥ · Finset.univ) (funext fun k => ?_)
  exact congrArg src (funext fun ax => Fin.ext (by
    match ax with
    | ⟨0, _⟩ => rfl
    | ⟨1, _⟩ => rfl))

end Cert.LibPlain

end
-- ==== Proof.RefValue.lean ====
/-
  The reference, entry by entry, at the extended reals.

  The reference computes a layer as array operations — the summed incoming rows divided by the count spread over the
  features, a product with `W_rel`, the bias row spread over the nodes, a product with `W_root`, a maximum with
  zero — and the head as a product, a bias and `1 / (1 + e^(-z))`. Entry by entry these are the layer and the head of
  the specification. The two stages that follow the edges (the weighted rows gathered along the edges and summed at
  their target nodes; the number of edges into each node) are kept as functions of their operands and never opened:
  the kernel's program computes them with the same operations.
-/
import proofs.«157174_j90237262889600_1_alg».proof.Proof.Gen.ReferenceIdeal.Read
import proofs.«157174_j90237262889600_1_alg».proof.Proof.Spec
import proofs.«157174_j90237262889600_1_alg».proof.Proof.LibPlain

noncomputable section

namespace Cert.ReferenceIdeal.RefValue

open Cert.ReferenceIdeal Cert.ReferenceIdeal.Gen Cert.ReferenceIdeal.Read
open Idealize.ShloMosaic Idealize.ShloMosaic.ValueIdx Cert.GraphConv

/-- An array of node feature rows. -/
abbrev Rows := FVec Ideal S50000x384 .f32
/-- The edge list: row 0 the sources, row 1 the targets. -/
abbrev Edges := (⟨S2x200000, .i32⟩ : BufTy).Contents (Elt Ideal)
/-- The edge weights. -/
abbrev Weights := FVec Ideal S200000 .f32
/-- One value per node. -/
abbrev PerNode := FVec Ideal S50000 .f32

/-- The rows of `h` gathered at the edges' sources, scaled by the edge weights and summed at the edges' targets.
    Kept closed. -/
def agg (h : Rows) (ei : Edges) (ew : Weights) : Rows :=
  Host.scatterAdd scatter_S50000x384_S200000x1_S200000x384_1_0_0_1 (val_main_v14 (F := Ideal)) (val_main_v15 (F := Ideal) ei)
    (mulf (Host.gather gather_S50000x384_S200000x1_S200000x384_1_0_n_n_0_1_1384 h (val_main_v9 (F := Ideal) ei))
      (val_main_v12 (F := Ideal) ew))

/-- The number of edges into each node: ones summed at the edges' targets. Kept closed. -/
def cnt (ei : Edges) : PerNode := val_main_v20 (F := Ideal) ei

/-- The 50000×384 by 384×384 product's dimension numbers are the standard ones. -/
theorem dot_rows_plain : dot_S50000x384_S384x384_S50000x384_1_0_0_1_n_n = DotDims.plain 50000 384 384 := rfl
/-- The 50000×384 by 384×2 product's dimension numbers are the standard ones. -/
theorem dot_head_plain : dot_S50000x384_S384x2_S50000x2_1_0_0_1_n_n = DotDims.plain 50000 384 2 := rfl

/-- A layer as the reference's array operations, of the summed rows `s`, the counts `n`, the nodes' rows `x` and the
    layer's weights. -/
def layerOps (s : Rows) (n : PerNode) (x : Rows) (Wrel : FVec Ideal S384x384 .f32)
    (b : FVec Ideal S384 .f32) (Wroot : FVec Ideal S384x384 .f32) : Rows :=
  maximumf
    (addf
      (addf
        (Host.dotGeneral dot_S50000x384_S384x384_S50000x384_1_0_0_1_n_n none
          (Host.divf s
            (broadcastInDim S50000x384 ![0, 1] bcast_S50000x1_S50000x384_0_1
              (broadcastInDim S50000x1 ![0] bcast_S50000_S50000x1_0
                (maximumf n (broadcastInDim S50000 ![] bcast_S_S50000 (constant (F := Ideal) S_ .f32 0x3F800000#32))))))
          Wrel)
        (broadcastInDim S50000x384 ![0, 1] bcast_S1x384_S50000x384_0_1 (broadcastInDim S1x384 ![1] bcast_S384_S1x384_1 b)))
      (Host.dotGeneral dot_S50000x384_S384x384_S50000x384_1_0_0_1_n_n none x Wroot))
    (broadcastInDim S50000x384 ![] bcast_S_S50000x384 (constant (F := Ideal) S_ .f32 0x00000000#32))

/-- The count, floored at one and spread over the features, at `(r, k)`: `max (n r) 1`. -/
theorem count_apply (n : PerNode) (r : Fin 50000) (k : Fin 384) :
    broadcastInDim S50000x384 ![0, 1] bcast_S50000x1_S50000x384_0_1
        (broadcastInDim S50000x1 ![0] bcast_S50000_S50000x1_0
          (maximumf n (broadcastInDim S50000 ![] bcast_S_S50000 (constant (F := Ideal) S_ .f32 0x3F800000#32)))) (ix2 r k)
      = max (n (ix1 r)) one := by
  rw [broadcastInDim_apply _ bcast_S50000x1_S50000x384_0_1 _ (ix2 r k) (ix2 r (0 : Fin 1)) (fun a => match a with
      | ⟨0, _⟩ => by show r.val = if (50000 : Nat) = 1 then 0 else r.val; rw [if_neg (by decide)]
      | ⟨1, _⟩ => by show 0 = if (1 : Nat) = 1 then 0 else k.val; rw [if_pos rfl]),
    broadcastInDim_apply _ bcast_S50000_S50000x1_0 _ (ix2 r (0 : Fin 1)) (ix1 r) (fun a => match a with
      | ⟨0, _⟩ => by show r.val = if (50000 : Nat) = 1 then 0 else r.val; rw [if_neg (by decide)]),
    maximumf_apply,
    broadcastInDim_apply _ bcast_S_S50000 _ (ix1 r) ix0 (fun a => a.elim0)]
  rfl

/-- The bias row spread over the nodes, at `(r, j)`: the bias at `j`. -/
theorem bias_apply (b : FVec Ideal S384 .f32) (r : Fin 50000) (j : Fin 384) :
    broadcastInDim S50000x384 ![0, 1] bcast_S1x384_S50000x384_0_1 (broadcastInDim S1x384 ![1] bcast_S384_S1x384_1 b) (ix2 r j)
      = b (ix1 j) := by
  rw [broadcastInDim_apply _ bcast_S1x384_S50000x384_0_1 _ (ix2 r j) (ix2 (0 : Fin 1) j) (fun a => match a with
      | ⟨0, _⟩ => by show 0 = if (1 : Nat) = 1 then 0 else r.val; rw [if_pos rfl]
      | ⟨1, _⟩ => by show j.val = if (384 : Nat) = 1 then 0 else j.val; rw [if_neg (by decide)]),
    broadcastInDim_apply _ bcast_S384_S1x384_1 _ (ix2 (0 : Fin 1) j) (ix1 j) (fun a => match a with
      | ⟨0, _⟩ => by show j.val = if (384 : Nat) = 1 then 0 else j.val; rw [if_neg (by decide)])]

/-- THE REFERENCE'S LAYER IS THE LAYER, entry by entry. -/
theorem layerOps_eq (s : Rows) (n : PerNode) (x : Rows) (Wrel : FVec Ideal S384x384 .f32)
    (b : FVec Ideal S384 .f32) (Wroot : FVec Ideal S384x384 .f32) :
    layerOps s n x Wrel b Wroot = conv s n x Wrel b Wroot := by
  funext i
  obtain ⟨r, j, rfl⟩ : ∃ (r : Fin 50000) (j : Fin 384), i = ix2 r j := ⟨i 0, i 1, eq_ix2 i⟩
  unfold layerOps conv convEntry
  rw [maximumf_apply, addf_apply, addf_apply, LibPlain.dotGeneral_apply _ dot_rows_plain,
    LibPlain.dotGeneral_apply _ dot_rows_plain, bias_apply,
    broadcastInDim_apply _ bcast_S_S50000x384 _ (ix2 r j) ix0 (fun a => a.elim0)]
  have hdiv : ∀ k : Fin 384, Host.divf s
      (broadcastInDim S50000x384 ![0, 1] bcast_S50000x1_S50000x384_0_1
        (broadcastInDim S50000x1 ![0] bcast_S50000_S50000x1_0
          (maximumf n (broadcastInDim S50000 ![] bcast_S_S50000 (constant (F := Ideal) S_ .f32 0x3F800000#32))))) (ix2 r k)
      = Ideal.div (s (ix2 r k)) (max (n (ix1 r)) one) := fun k => by
    show Ideal.div (s (ix2 r k)) _ = _
    rw [count_apply]
  simp only [hdiv]
  rfl

/-! ## The head -/

/-- The head as the reference's array operations, of the feature rows `y` and the head's weights. -/
def headOps (y : Rows) (Wlin : FVec Ideal S384x2 .f32) (blin : FVec Ideal S2 .f32) : FVec Ideal S50000x2 .f32 :=
  Host.divf (broadcastInDim S50000x2 ![] bcast_S_S50000x2 (constant (F := Ideal) S_ .f32 0x3F800000#32))
    (addf (broadcastInDim S50000x2 ![] bcast_S_S50000x2 (constant (F := Ideal) S_ .f32 0x3F800000#32))
      (Host.exp (Host.negf (addf (Host.dotGeneral dot_S50000x384_S384x2_S50000x2_1_0_0_1_n_n none y Wlin)
        (broadcastInDim S50000x2 ![0, 1] bcast_S1x2_S50000x2_0_1 (broadcastInDim S1x2 ![1] bcast_S2_S1x2_1 blin))))))

theorem hostDivf_apply {s : Shape} (a b : FVec Ideal s .f32) (i : s.Idx) : Host.divf a b i = Ideal.div (a i) (b i) := rfl
theorem hostExp_apply {s : Shape} (a : FVec Ideal s .f32) (i : s.Idx) : Host.exp a i = Ideal.exp (a i) := rfl
theorem hostNegf_apply {s : Shape} (a : FVec Ideal s .f32) (i : s.Idx) : Host.negf a i = -(a i) := rfl

/-- The head's bias row spread over the nodes, at `(r, o)`: the bias at `o`. -/
theorem head_bias_apply (blin : FVec Ideal S2 .f32) (r : Fin 50000) (o : Fin 2) :
    broadcastInDim S50000x2 ![0, 1] bcast_S1x2_S50000x2_0_1 (broadcastInDim S1x2 ![1] bcast_S2_S1x2_1 blin) (ix2 r o)
      = blin (ix1 o) := by
  rw [broadcastInDim_apply _ bcast_S1x2_S50000x2_0_1 _ (ix2 r o) (ix2 (0 : Fin 1) o) (fun a => match a with
      | ⟨0, _⟩ => by show 0 = if (1 : Nat) = 1 then 0 else r.val; rw [if_pos rfl]
      | ⟨1, _⟩ => by show o.val = if (2 : Nat) = 1 then 0 else o.val; rw [if_neg (by decide)]),
    broadcastInDim_apply _ bcast_S2_S1x2_1 _ (ix2 (0 : Fin 1) o) (ix1 o) (fun a => match a with
      | ⟨0, _⟩ => by show o.val = if (2 : Nat) = 1 then 0 else o.val; rw [if_neg (by decide)])]

/-- THE REFERENCE'S HEAD IS THE HEAD, entry by entry: `1 / (1 + e^(-z))` is the sigmoid of `z`. -/
theorem headOps_eq (y : Rows) (Wlin : FVec Ideal S384x2 .f32) (blin : FVec Ideal S2 .f32) :
    headOps y Wlin blin = head y Wlin blin := by
  funext i
  obtain ⟨r, o, rfl⟩ : ∃ (r : Fin 50000) (o : Fin 2), i = ix2 r o := ⟨i 0, i 1, eq_ix2 i⟩
  unfold headOps head headEntry
  rw [hostDivf_apply, addf_apply, hostExp_apply, hostNegf_apply, addf_apply, LibPlain.dotGeneral_apply _ dot_head_plain,
    broadcastInDim_apply _ bcast_S_S50000x2 _ (ix2 r o) ix0 (fun a => a.elim0), head_bias_apply]
  exact logistic_spelt _

/-! ## The reference's stages are these operations of the closed stages -/

theorem v32_eq (x0 : Rows) (x1 : Edges) (x2 : Weights) (x3 : FVec Ideal S384x384 .f32) (x4 : FVec Ideal S384 .f32)
    (x5 : FVec Ideal S384x384 .f32) :
    val_main_v32 (F := Ideal) x0 x1 x2 x3 x4 x5 = layerOps (agg x0 x1 x2) (cnt x1) x0 x3 x4 x5 := rfl

theorem v65_eq (x0 : Rows) (x1 : Edges) (x2 : Weights) (x3 : FVec Ideal S384x384 .f32) (x4 : FVec Ideal S384 .f32)
    (x5 x6 : FVec Ideal S384x384 .f32) (x7 : FVec Ideal S384 .f32) (x8 : FVec Ideal S384x384 .f32) :
    val_main_v65 (F := Ideal) x0 x1 x2 x3 x4 x5 x6 x7 x8
      = layerOps (agg (val_main_v32 (F := Ideal) x0 x1 x2 x3 x4 x5) x1 x2) (cnt x1)
          (val_main_v32 (F := Ideal) x0 x1 x2 x3 x4 x5) x6 x7 x8 := rfl

theorem v75_eq (x0 : Rows) (x1 : Edges) (x2 : Weights) (x3 : FVec Ideal S384x384 .f32) (x4 : FVec Ideal S384 .f32)
    (x5 x6 : FVec Ideal S384x384 .f32) (x7 : FVec Ideal S384 .f32) (x8 : FVec Ideal S384x384 .f32)
    (x9 : FVec Ideal S384x2 .f32) (x10 : FVec Ideal S2 .f32) :
    val_main_v75 (F := Ideal) x0 x1 x2 x3 x4 x5 x6 x7 x8 x9 x10
      = headOps (val_main_v65 (F := Ideal) x0 x1 x2 x3 x4 x5 x6 x7 x8) x9 x10 := rfl

/-! ## The two results as functions of the arguments -/

/-- The first layer's output rows. -/
def hidden (x : Rows) (ei : Edges) (ew : Weights) (W1rel : FVec Ideal S384x384 .f32) (b1 : FVec Ideal S384 .f32)
    (W1root : FVec Ideal S384x384 .f32) : Rows :=
  conv (agg x ei ew) (cnt ei) x W1rel b1 W1root

/-- The second layer's output rows: the second result. -/
def yFun (x : Rows) (ei : Edges) (ew : Weights) (W1rel : FVec Ideal S384x384 .f32) (b1 : FVec Ideal S384 .f32)
    (W1root W2rel : FVec Ideal S384x384 .f32) (b2 : FVec Ideal S384 .f32) (W2root : FVec Ideal S384x384 .f32) : Rows :=
  conv (agg (hidden x ei ew W1rel b1 W1root) ei ew) (cnt ei) (hidden x ei ew W1rel b1 W1root) W2rel b2 W2root

/-- The head's output: the first result. -/
def outFun (x : Rows) (ei : Edges) (ew : Weights) (W1rel : FVec Ideal S384x384 .f32) (b1 : FVec Ideal S384 .f32)
    (W1root W2rel : FVec Ideal S384x384 .f32) (b2 : FVec Ideal S384 .f32) (W2root : FVec Ideal S384x384 .f32)
    (Wlin : FVec Ideal S384x2 .f32) (blin : FVec Ideal S2 .f32) : FVec Ideal S50000x2 .f32 :=
  head (yFun x ei ew W1rel b1 W1root W2rel b2 W2root) Wlin blin

/-- THE REFERENCE'S SECOND RESULT is `yFun` of the arguments. -/
theorem ref_y (x0 : Rows) (x1 : Edges) (x2 : Weights) (x3 : FVec Ideal S384x384 .f32) (x4 : FVec Ideal S384 .f32)
    (x5 x6 : FVec Ideal S384x384 .f32) (x7 : FVec Ideal S384 .f32) (x8 : FVec Ideal S384x384 .f32) :
    val_main_v65 (F := Ideal) x0 x1 x2 x3 x4 x5 x6 x7 x8 = yFun x0 x1 x2 x3 x4 x5 x6 x7 x8 := by
  rw [v65_eq, layerOps_eq, v32_eq, layerOps_eq]
  rfl

/-- THE REFERENCE'S FIRST RESULT is `outFun` of the arguments. -/
theorem ref_out (x0 : Rows) (x1 : Edges) (x2 : Weights) (x3 : FVec Ideal S384x384 .f32) (x4 : FVec Ideal S384 .f32)
    (x5 x6 : FVec Ideal S384x384 .f32) (x7 : FVec Ideal S384 .f32) (x8 : FVec Ideal S384x384 .f32)
    (x9 : FVec Ideal S384x2 .f32) (x10 : FVec Ideal S2 .f32) :
    val_main_v75 (F := Ideal) x0 x1 x2 x3 x4 x5 x6 x7 x8 x9 x10 = outFun x0 x1 x2 x3 x4 x5 x6 x7 x8 x9 x10 := by
  rw [v75_eq, headOps_eq, ref_y]
  rfl

end Cert.ReferenceIdeal.RefValue

end
-- ==== Proof.KRun.lean ====
/-
  The kernel's program run from launch to return, with its two results named.

  The program is two stretches of host operations and two kernel launches, in turn. Its run is the generated one: every
  weakly fair execution terminates without a fault in a state whose buffers hold the contents at the last segment
  boundary. Read at the two result buffers, those contents are what the second kernel's write-backs leave in its two
  output arrays; read at the argument buffers, the launch contents.
-/
import proofs.«157174_j90237262889600_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- THE RUN WITH ITS RESULTS: every weakly fair execution of the program terminates, nothing faulting, with each result
    buffer at the last boundary's contents and every argument buffer as launched. -/
theorem run_results : θ_run defs (onTc (τ := τ) (main (F := F))) ⟨m, fun _ => 0, ρ⟩ (fun r => ∀ c : Dev nD,
      r.2.mem ((c.tc : Thread nD τ).loc main_v36_1) = W4 m ρ c (Proc.devRef .tc main_v36_1)
      ∧ r.2.mem ((c.tc : Thread nD τ).loc main_v36_0) = W4 m ρ c (Proc.devRef .tc main_v36_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v36_1 (by decide)),
       h c _ (mem_uc main_v36_0 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)

end Cert.KernelIdeal.Run

end
-- ==== Proof.LibKeepdims.lean ====
/-
  A reduced axis kept as a unit column, and the column spread back over the rows.

  A reduction over the last axis of an `[a, b]` array with the reduced axis kept (`keepdims`) is carried as an `[a]`
  vector viewed as an `[a, 1]` column and then broadcast to `[a, b]`. Read at explicit coordinates: the column at
  `(i, 0)` is the vector at `i`, and the broadcast at `(i, j)` is the column at `(i, 0)`, whatever `j`.
-/
import Idealize.ShloMosaic.Lib.Pipeline.Value
import Idealize.ShloMosaic.Lib.ValueIdx

namespace Cert.LibKeepdims

open Idealize.ShloMosaic Idealize.ShloMosaic.ValueIdx

variable {α : Type}

/-- An `[a]` vector cast to an `[a, 1]` column reads, at `(i, u)`, the vector at `i`: the two indices have the same
    row-major position. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(i, j)`, the column at `(i, 0)`: the unit axis is read at `0`,
    the other at the same coordinate (when `a = 1` that coordinate is `0` too). -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.KBody.lean ====
/-
  What each kernel body computes, entry by entry, at the extended reals.

  The first kernel reads a block of node rows (the summed incoming rows, the incoming-edge counts as a column, the
  nodes' own rows) and the layer's weights, and writes the layer's output rows: entry `(p, q)` of what it stores is
  the layer's entry `q` at the block's row `p`. The reciprocal `1 / max n 1` it multiplies by is the quotient by
  `max n 1`; a change of float format is the identity; a product accumulated into zeros is the plain sum of products.
  The second kernel does the same for the second layer and then applies the head to the row it has just computed.
-/
import proofs.«157174_j90237262889600_1_alg».proof.Proof.Gen.KernelIdeal.Skeleton
import proofs.«157174_j90237262889600_1_alg».proof.Proof.Spec
import proofs.«157174_j90237262889600_1_alg».proof.Proof.LibPlain
import proofs.«157174_j90237262889600_1_alg».proof.Proof.LibKeepdims
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx Cert.GraphConv

/-- The 2000×384 by 384×384 product's dimension numbers are the standard ones. -/
theorem dot_rows_plain : dot_S2000x384_S384x384_S2000x384_1_0_0_1_n_n = DotDims.plain 2000 384 384 := rfl
/-- The 2000×384 by 384×2 product's dimension numbers are the standard ones. -/
theorem dot_head_plain : dot_S2000x384_S384x2_S2000x2_1_0_0_1_n_n = DotDims.plain 2000 384 2 := rfl

/-- The row of the mean: the summed row times the reciprocal column spread over the features, at `(p, k)`, is the
    summed entry divided by `max n 1`. -/
theorem mean_apply (v0 : Vec Ideal S2000x1 .f32) (v6 : Vec Ideal S2000x384 .f32) (p : Fin 2000) (k : Fin 384) :
    mulf v6
        (broadcastTo S2000x384
          (divf (broadcast S2000x1 (Scalar.ofBits (F := Ideal) .f32 0x3F800000#32))
            (maximumf v0 (broadcast S2000x1 (Scalar.ofBits (F := Ideal) .f32 0x3F800000#32))))
          broadcasts_S2000x1_S2000x384) (ix2 p k)
      = Ideal.div (v6 (ix2 p k)) (max (v0 (ix2 p (0 : Fin 1))) one) := by
  rw [mulf_apply, LibKeepdims.broadcastTo_a1_ab_apply, divf_apply, maximumf_apply]
  exact mul_recip_eq_div _ _

/-- The bias row spread over the block's rows, at `(p, q)`, is the bias at `q`. -/
theorem bias_apply (v19 : Vec Ideal S384 .f32) (p : Fin 2000) (q : Fin 384) :
    broadcastTo S2000x384 (shapeCast S1x384 v19 shapeCasts_S384_S1x384) broadcasts_S1x384_S2000x384 (ix2 p q)
      = v19 (ix1 q) := by
  rw [broadcastTo_1b_ab_apply, shapeCast_a_1a_apply]

/-- THE FIRST KERNEL'S STORE at `(p, q)`: the layer's entry `q` at the block's row `p`. -/
theorem pay_layer1 (v0 : Vec Ideal S2000x1 .f32) (v6 v11 : Vec Ideal S2000x384 .f32)
    (v13 v15 : Vec Ideal S384x384 .f32) (v19 : Vec Ideal S384 .f32) (p : Fin 2000) (q : Fin 384) :
    k0_pay1 v0 v6 v11 v13 v15 v19 (ix2 p q)
      = convEntry (fun k => v6 (ix2 p k)) (v0 (ix2 p (0 : Fin 1))) (fun k => v11 (ix2 p k)) v13 v19 v15 q := by
  unfold k0_pay1 convEntry
  rw [maximumf_apply, addf_apply, addf_apply, broadcast_apply]
  rw [LibPlain.matmul_zero_apply _ dot_rows_plain, LibPlain.matmul_zero_apply _ dot_rows_plain, bias_apply]
  simp only [truncf_apply, shapeCast_self, mean_apply]
  rfl

/-- THE SECOND KERNEL'S FIRST STORE at `(p, q)`: the second layer's entry `q` at the block's row `p` (the same
    arithmetic as the first kernel's, on the second layer's weights). -/
theorem pay_layer2 (v0 : Vec Ideal S2000x1 .f32) (v6 v11 : Vec Ideal S2000x384 .f32)
    (v14 v16 : Vec Ideal S384x384 .f32) (v20 : Vec Ideal S384 .f32) (p : Fin 2000) (q : Fin 384) :
    k1_pay2 v0 v6 v11 v14 v16 v20 (ix2 p q)
      = convEntry (fun k => v6 (ix2 p k)) (v0 (ix2 p (0 : Fin 1))) (fun k => v11 (ix2 p k)) v14 v20 v16 q := by
  unfold k1_pay2 convEntry
  rw [maximumf_apply, addf_apply, addf_apply, broadcast_apply]
  rw [LibPlain.matmul_zero_apply _ dot_rows_plain, LibPlain.matmul_zero_apply _ dot_rows_plain, bias_apply]
  simp only [truncf_apply, shapeCast_self, mean_apply]
  rfl

/-- The head's bias row spread over the block's rows, at `(p, o)`, is the bias at `o`. -/
theorem head_bias_apply (v32 : Vec Ideal S2 .f32) (p : Fin 2000) (o : Fin 2) :
    broadcastTo S2000x2 (shapeCast S1x2 v32 shapeCasts_S2_S1x2) broadcasts_S1x2_S2000x2 (ix2 p o) = v32 (ix1 o) := by
  rw [broadcastTo_1b_ab_apply, shapeCast_a_1a_apply]

/-- THE SECOND KERNEL'S SECOND STORE at `(p, o)`: the head's entry `o` on the second layer's row at `p` — the row the
    kernel has just computed, entry by entry. -/
theorem pay_head (v0 : Vec Ideal S2000x1 .f32) (v6 v11 : Vec Ideal S2000x384 .f32)
    (v14 v16 : Vec Ideal S384x384 .f32) (v20 : Vec Ideal S384 .f32) (v29 : Vec Ideal S384x2 .f32)
    (v32 : Vec Ideal S2 .f32) (p : Fin 2000) (o : Fin 2) :
    k1_pay1 (k1_pay3 v0 v6 v11 v14 v16 v20 v29 v32) (ix2 p o)
      = headEntry (fun k => convEntry (fun k' => v6 (ix2 p k')) (v0 (ix2 p (0 : Fin 1))) (fun k' => v11 (ix2 p k'))
          v14 v20 v16 k) v29 v32 o := by
  unfold k1_pay1 k1_pay3 headEntry
  show Ideal.logistic _ = _
  refine congrArg Ideal.logistic ?_
  dsimp only
  rw [addf_apply, LibPlain.matmul_zero_apply _ dot_head_plain, head_bias_apply]
  simp only [truncf_apply, pay_layer2]

end Cert.KernelIdeal.Body

end
-- ==== Proof.KRegion0.lean ====
/-
  The first kernel over its whole grid: the array it leaves.

  The grid has 25 points; point `t` works on node rows `2000 t … 2000 t + 1999`: it is handed those rows of the summed
  incoming rows, of the count column and of the nodes' own rows, and the whole of the layer's weights, and writes those
  rows of the output. Row `p` of point `t`'s blocks is row `2000 t + p` of the arrays, so what the point writes back is
  its block of ONE array — the layer applied to the arrays as the kernel finds them — and the 25 blocks fill the
  50000 rows.
-/
import proofs.«157174_j90237262889600_1_alg».proof.Proof.Gen.KernelIdeal.Frame
import proofs.«157174_j90237262889600_1_alg».proof.Proof.KBody

set_option maxRecDepth 16384

noncomputable section

namespace Cert.KernelIdeal.Region0

open Cert.KernelIdeal Cert.KernelIdeal.Gen Idealize.ShloMosaic Idealize.ShloMosaic.TcCoe Idealize.ShloMosaic.ValueIdx
open Idealize.SL.Sem
open Idealize.ShloMosaic.Pipeline (Dat)
open Cert.GraphConv

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the row-blocked windows sit at block `(t, 0)`, the weights at block `0`. -/
theorem idx_facts : ∀ t : Fin cfg0.N, t.val < 25
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Every block of rows is some point's. -/
theorem idx_onto : ∀ q0 : Fin 25, ∃ t : Fin cfg0.N, t.val = q0.val :=
  (by decide +kernel : ∀ q0 : Fin 25, ∃ t : Fin grid0.N, t.val = q0.val)

/-- The node row that row `p` of point `t`'s blocks is. -/
def row (t : Fin cfg0.N) (p : Fin 2000) : Fin 50000 :=
  ⟨t.val * 2000 + p.val, by have := (idx_facts t).1; have := p.isLt; omega⟩

/-- THE ARRAY the first kernel leaves: the layer applied to the arrays as the kernel finds them — the summed incoming
    rows, the count column, the nodes' rows, the weights. -/
def layerOut (c : Dev nD) : S50000x384.Idx → EReal :=
  conv (V c main_v21) (fun i => V c main_v8 (ix2 (i 0) (0 : Fin 1))) (V c main_arg0) (V c main_arg3) (V c main_arg4)
    (V c main_arg5)

/-! ## A block read at a row -/

theorem rd0 (c : Dev nD) (t : Fin cfg0.N) (p : Fin 2000) (k : Fin 384) :
    iblk0 V c 0 t (ix2 p k) = V c main_v21 (ix2 (row t p) k) := by
  obtain ⟨_, e0, e1, _⟩ := idx_facts t
  show V c main_v21 (((cfg0.win 0).blk t).view.emb (ix2 p k)) = _
  refine congrArg (V c main_v21) (funext fun a => Fin.ext ?_)
  match a with
  | ⟨0, _⟩ => show win0_0.index t (0 : Fin 2) * 2000 + 1 * p.val = t.val * 2000 + p.val; rw [e0]; omega
  | ⟨1, _⟩ => show win0_0.index t (1 : Fin 2) * 384 + 1 * k.val = k.val; rw [e1]; omega

theorem rd1 (c : Dev nD) (t : Fin cfg0.N) (p : Fin 2000) :
    iblk0 V c 1 t (ix2 p (0 : Fin 1)) = V c main_v8 (ix2 (row t p) (0 : Fin 1)) := by
  obtain ⟨_, _, _, e0, e1, _⟩ := idx_facts t
  show V c main_v8 (((cfg0.win 1).blk t).view.emb (ix2 p (0 : Fin 1))) = _
  refine congrArg (V c main_v8) (funext fun a => Fin.ext ?_)
  match a with
  | ⟨0, _⟩ => show win0_1.index t (0 : Fin 2) * 2000 + 1 * p.val = t.val * 2000 + p.val; rw [e0]; omega
  | ⟨1, _⟩ => show win0_1.index t (1 : Fin 2) * 1 + 1 * 0 = 0; rw [e1]

theorem rd2 (c : Dev nD) (t : Fin cfg0.N) (p : Fin 2000) (k : Fin 384) :
    iblk0 V c 2 t (ix2 p k) = V c main_arg0 (ix2 (row t p) k) := by
  obtain ⟨_, _, _, _, _, e0, e1, _⟩ := idx_facts t
  show V c main_arg0 (((cfg0.win 2).blk t).view.emb (ix2 p k)) = _
  refine congrArg (V c main_arg0) (funext fun a => Fin.ext ?_)
  match a with
  | ⟨0, _⟩ => show win0_2.index t (0 : Fin 2) * 2000 + 1 * p.val = t.val * 2000 + p.val; rw [e0]; omega
  | ⟨1, _⟩ => show win0_2.index t (1 : Fin 2) * 384 + 1 * k.val = k.val; rw [e1]; omega

theorem rd3 (c : Dev nD) (t : Fin cfg0.N) : iblk0 V c 3 t = V c main_arg3 := by
  obtain ⟨_, _, _, _, _, _, _, e0, e1, _⟩ := idx_facts t
  funext y
  show V c main_arg3 (((cfg0.win 3).blk t).view.emb y) = _
  refine congrArg (V c main_arg3) (funext fun a => Fin.ext ?_)
  match a with
  | ⟨0, _⟩ => show win0_3.index t (0 : Fin 2) * 384 + 1 * (y 0).val = (y 0).val; rw [e0]; omega
  | ⟨1, _⟩ => show win0_3.index t (1 : Fin 2) * 384 + 1 * (y 1).val = (y 1).val; rw [e1]; omega

theorem rd4 (c : Dev nD) (t : Fin cfg0.N) : iblk0 V c 4 t = V c main_arg4 := by
  obtain ⟨_, _, _, _, _, _, _, _, _, e0, _⟩ := idx_facts t
  funext y
  show V c main_arg4 (((cfg0.win 4).blk t).view.emb y) = _
  refine congrArg (V c main_arg4) (funext fun a => Fin.ext ?_)
  match a with
  | ⟨0, _⟩ => show win0_4.index t (0 : Fin 1) * 384 + 1 * (y 0).val = (y 0).val; rw [e0]; omega

theorem rd5 (c : Dev nD) (t : Fin cfg0.N) : iblk0 V c 5 t = V c main_arg5 := by
  obtain ⟨_, _, _, _, _, _, _, _, _, _, e0, e1, _⟩ := idx_facts t
  funext y
  show V c main_arg5 (((cfg0.win 5).blk t).view.emb y) = _
  refine congrArg (V c main_arg5) (funext fun a => Fin.ext ?_)
  match a with
  | ⟨0, _⟩ => show win0_5.index t (0 : Fin 2) * 384 + 1 * (y 0).val = (y 0).val; rw [e0]; omega
  | ⟨1, _⟩ => show win0_5.index t (1 : Fin 2) * 384 + 1 * (y 1).val = (y 1).val; rw [e1]; omega

/-- Where entry `(p, q)` of point `t`'s output block lies in the array. -/
theorem emb6 (t : Fin cfg0.N) (p : Fin 2000) (q : Fin 384) :
    ((cfg0.win 6).blk t).view.emb (ix2 p q) = ix2 (row t p) q := by
  obtain ⟨_, _, _, _, _, _, _, _, _, _, _, _, e0, e1⟩ := idx_facts t
  refine funext fun a => Fin.ext ?_
  match a with
  | ⟨0, _⟩ => show win0_6.index t (0 : Fin 2) * 2000 + 1 * p.val = t.val * 2000 + p.val; rw [e0]; omega
  | ⟨1, _⟩ => show win0_6.index t (1 : Fin 2) * 384 + 1 * q.val = q.val; rw [e1]; omega

/-! ## What a point writes back, and the whole array -/

/-- WHAT POINT `t` WRITES BACK is its block of `layerOut`. -/
theorem flushed6_eq (c : Dev nD) (t : Fin cfg0.N) :
    (dat0 (F := Ideal) V c).flushed 6 t = ((cfg0.win 6).blk t).view.read (Elt Ideal) (layerOut V c) := by
  show (cfg0.win 6).cut (grid0.coords t) ((dat0 (F := Ideal) V c).after 6 t) = _
  rw [after0_6]
  unfold out0_6
  rw [View.canon_unit_zero hz2]
  simp only [View.ld_unit_zero (S := S2000x384) hz2, View.ld_unit_zero (S := S2000x1) hz2,
    View.ld_unit_zero (S := S384x384) hz2, View.ld_unit_zero (S := S384) hz1]
  funext j
  obtain ⟨p, q, rfl⟩ : ∃ (p : Fin 2000) (q : Fin 384), j = ix2 p q := ⟨j 0, j 1, eq_ix2 j⟩
  refine (Body.pay_layer1 (iblk0 V c 1 t) (iblk0 V c 0 t) (iblk0 V c 2 t) (iblk0 V c 3 t) (iblk0 V c 5 t)
    (iblk0 V c 4 t) p q).trans ?_
  refine Eq.trans ?_ (congrArg (layerOut V c) (emb6 t p q)).symm
  rw [rd3, rd4, rd5, rd1]
  simp only [rd0, rd2]
  rfl

/-- An index of the array is in point `t`'s block iff each coordinate is in the block's range on its axis. -/
theorem mem_blk6 (t : Fin cfg0.N) (i : S50000x384.Idx) :
    i ∈ ((cfg0.win 6).blk t).view.set ↔ ∀ a : Fin 2, win0_6.index t a * S2000x384.size a ≤ (i a).val
      ∧ (i a).val < win0_6.index t a * S2000x384.size a + S2000x384.size a := by
  show i ∈ ((View.whole main_v22).slice (win0_6.rect t)).set ↔ _
  rw [View.set_slice_whole, Rect.mem_set_unit]
  exact Iff.rfl

/-- The 25 blocks of 2000 rows fill the 50000 rows: row `r` is in the block of point `r / 2000`. -/
theorem cover6 (i : S50000x384.Idx) :
    ∃ t : Fin cfg0.N, (cfg0.win 6).flush t = true ∧ i ∈ ((cfg0.win 6).blk t).view.set := by
  have hi0 : (i 0).val < 50000 := (i 0).isLt
  have hi1 : (i 1).val < 384 := (i 1).isLt
  obtain ⟨t, ht⟩ := idx_onto ⟨(i 0).val / 2000, by omega⟩
  have ht' : t.val = (i 0).val / 2000 := ht
  obtain ⟨_, _, _, _, _, _, _, _, _, _, _, _, e0, e1⟩ := idx_facts t
  refine ⟨t, flush0_6 t, ?_⟩
  rw [mem_blk6]
  intro a
  match a with
  | ⟨0, _⟩ =>
    show win0_6.index t (0 : Fin 2) * 2000 ≤ (i 0).val ∧ (i 0).val < win0_6.index t (0 : Fin 2) * 2000 + 2000
    rw [e0]; omega
  | ⟨1, _⟩ =>
    show win0_6.index t (1 : Fin 2) * 384 ≤ (i 1).val ∧ (i 1).val < win0_6.index t (1 : Fin 2) * 384 + 384
    rw [e1]; omega

/-- THE ARRAY AFTER THE FIRST KERNEL is `layerOut` of the arrays as the kernel finds them. -/
theorem final6 (c : Dev nD) : (dat0 (F := Ideal) V c).arrAt 6 cfg0.N = layerOut V c :=
  (dat0 (F := Ideal) V c).arrAt_eq_of_cover 6 (layerOut V c) (fun t _ => flushed6_eq V c t) cover6

end Cert.KernelIdeal.Region0

end
-- ==== Proof.KRegion1.lean ====
/-
  The second kernel over its whole grid: the two arrays it leaves.

  As in the first kernel, point `t` of the 25 works on node rows `2000 t … 2000 t + 1999`. It writes those rows of the
  second layer's output and, from the rows it has just computed, those rows of the head's output. So what it writes
  back are its blocks of two arrays — the layer applied to the arrays as the kernel finds them, and the head applied to
  that — and the 25 blocks fill the 50000 rows of each.
-/
import proofs.«157174_j90237262889600_1_alg».proof.Proof.Gen.KernelIdeal.Frame
import proofs.«157174_j90237262889600_1_alg».proof.Proof.KBody

set_option maxRecDepth 16384

noncomputable section

namespace Cert.KernelIdeal.Region1

open Cert.KernelIdeal Cert.KernelIdeal.Gen Idealize.ShloMosaic Idealize.ShloMosaic.TcCoe Idealize.ShloMosaic.ValueIdx
open Idealize.SL.Sem
open Idealize.ShloMosaic.Pipeline (Dat)
open Cert.GraphConv

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the row-blocked windows sit at block `(t, 0)`, the weights at block `0`. -/
theorem idx_facts : ∀ t : Fin cfg1.N, t.val < 25
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 1) = 0
    ∧ win1_8.index t (0 : Fin 2) = t.val ∧ win1_8.index t (1 : Fin 2) = 0
    ∧ win1_9.index t (0 : Fin 2) = t.val ∧ win1_9.index t (1 : Fin 2) = 0 :=
  (by decide +kernel : ∀ t : Fin grid1.N, _)

/-- Every block of rows is some point's. -/
theorem idx_onto : ∀ q0 : Fin 25, ∃ t : Fin cfg1.N, t.val = q0.val :=
  (by decide +kernel : ∀ q0 : Fin 25, ∃ t : Fin grid1.N, t.val = q0.val)

/-- The node row that row `p` of point `t`'s blocks is. -/
def row (t : Fin cfg1.N) (p : Fin 2000) : Fin 50000 :=
  ⟨t.val * 2000 + p.val, by have := (idx_facts t).1; have := p.isLt; omega⟩

/-- THE FIRST ARRAY the second kernel leaves: the layer applied to the arrays as the kernel finds them. -/
def layerOut (c : Dev nD) : S50000x384.Idx → EReal :=
  conv (V c main_v35) (fun i => V c main_v8 (ix2 (i 0) (0 : Fin 1))) (V c main_v22) (V c main_arg6) (V c main_arg7)
    (V c main_arg8)

/-- THE SECOND ARRAY it leaves: the head applied to the first. -/
def headOut (c : Dev nD) : S50000x2.Idx → EReal :=
  head (layerOut V c) (V c main_arg9) (V c main_arg10)

/-! ## A block read at a row -/

theorem rd0 (c : Dev nD) (t : Fin cfg1.N) (p : Fin 2000) (k : Fin 384) :
    iblk1 V c 0 t (ix2 p k) = V c main_v35 (ix2 (row t p) k) := by
  obtain ⟨_, e0, e1, _⟩ := idx_facts t
  show V c main_v35 (((cfg1.win 0).blk t).view.emb (ix2 p k)) = _
  refine congrArg (V c main_v35) (funext fun a => Fin.ext ?_)
  match a with
  | ⟨0, _⟩ => show win1_0.index t (0 : Fin 2) * 2000 + 1 * p.val = t.val * 2000 + p.val; rw [e0]; omega
  | ⟨1, _⟩ => show win1_0.index t (1 : Fin 2) * 384 + 1 * k.val = k.val; rw [e1]; omega

theorem rd1 (c : Dev nD) (t : Fin cfg1.N) (p : Fin 2000) :
    iblk1 V c 1 t (ix2 p (0 : Fin 1)) = V c main_v8 (ix2 (row t p) (0 : Fin 1)) := by
  obtain ⟨_, _, _, e0, e1, _⟩ := idx_facts t
  show V c main_v8 (((cfg1.win 1).blk t).view.emb (ix2 p (0 : Fin 1))) = _
  refine congrArg (V c main_v8) (funext fun a => Fin.ext ?_)
  match a with
  | ⟨0, _⟩ => show win1_1.index t (0 : Fin 2) * 2000 + 1 * p.val = t.val * 2000 + p.val; rw [e0]; omega
  | ⟨1, _⟩ => show win1_1.index t (1 : Fin 2) * 1 + 1 * 0 = 0; rw [e1]

theorem rd2 (c : Dev nD) (t : Fin cfg1.N) (p : Fin 2000) (k : Fin 384) :
    iblk1 V c 2 t (ix2 p k) = V c main_v22 (ix2 (row t p) k) := by
  obtain ⟨_, _, _, _, _, e0, e1, _⟩ := idx_facts t
  show V c main_v22 (((cfg1.win 2).blk t).view.emb (ix2 p k)) = _
  refine congrArg (V c main_v22) (funext fun a => Fin.ext ?_)
  match a with
  | ⟨0, _⟩ => show win1_2.index t (0 : Fin 2) * 2000 + 1 * p.val = t.val * 2000 + p.val; rw [e0]; omega
  | ⟨1, _⟩ => show win1_2.index t (1 : Fin 2) * 384 + 1 * k.val = k.val; rw [e1]; omega

theorem rd3 (c : Dev nD) (t : Fin cfg1.N) : iblk1 V c 3 t = V c main_arg6 := by
  obtain ⟨_, _, _, _, _, _, _, e0, e1, _⟩ := idx_facts t
  funext y
  show V c main_arg6 (((cfg1.win 3).blk t).view.emb y) = _
  refine congrArg (V c main_arg6) (funext fun a => Fin.ext ?_)
  match a with
  | ⟨0, _⟩ => show win1_3.index t (0 : Fin 2) * 384 + 1 * (y 0).val = (y 0).val; rw [e0]; omega
  | ⟨1, _⟩ => show win1_3.index t (1 : Fin 2) * 384 + 1 * (y 1).val = (y 1).val; rw [e1]; omega

theorem rd4 (c : Dev nD) (t : Fin cfg1.N) : iblk1 V c 4 t = V c main_arg7 := by
  obtain ⟨_, _, _, _, _, _, _, _, _, e0, _⟩ := idx_facts t
  funext y
  show V c main_arg7 (((cfg1.win 4).blk t).view.emb y) = _
  refine congrArg (V c main_arg7) (funext fun a => Fin.ext ?_)
  match a with
  | ⟨0, _⟩ => show win1_4.index t (0 : Fin 1) * 384 + 1 * (y 0).val = (y 0).val; rw [e0]; omega

theorem rd5 (c : Dev nD) (t : Fin cfg1.N) : iblk1 V c 5 t = V c main_arg8 := by
  obtain ⟨_, _, _, _, _, _, _, _, _, _, e0, e1, _⟩ := idx_facts t
  funext y
  show V c main_arg8 (((cfg1.win 5).blk t).view.emb y) = _
  refine congrArg (V c main_arg8) (funext fun a => Fin.ext ?_)
  match a with
  | ⟨0, _⟩ => show win1_5.index t (0 : Fin 2) * 384 + 1 * (y 0).val = (y 0).val; rw [e0]; omega
  | ⟨1, _⟩ => show win1_5.index t (1 : Fin 2) * 384 + 1 * (y 1).val = (y 1).val; rw [e1]; omega

theorem rd6 (c : Dev nD) (t : Fin cfg1.N) : iblk1 V c 6 t = V c main_arg9 := by
  obtain ⟨_, _, _, _, _, _, _, _, _, _, _, _, e0, e1, _⟩ := idx_facts t
  funext y
  show V c main_arg9 (((cfg1.win 6).blk t).view.emb y) = _
  refine congrArg (V c main_arg9) (funext fun a => Fin.ext ?_)
  match a with
  | ⟨0, _⟩ => show win1_6.index t (0 : Fin 2) * 384 + 1 * (y 0).val = (y 0).val; rw [e0]; omega
  | ⟨1, _⟩ => show win1_6.index t (1 : Fin 2) * 2 + 1 * (y 1).val = (y 1).val; rw [e1]; omega

theorem rd7 (c : Dev nD) (t : Fin cfg1.N) : iblk1 V c 7 t = V c main_arg10 := by
  obtain ⟨_, _, _, _, _, _, _, _, _, _, _, _, _, _, e0, _⟩ := idx_facts t
  funext y
  show V c main_arg10 (((cfg1.win 7).blk t).view.emb y) = _
  refine congrArg (V c main_arg10) (funext fun a => Fin.ext ?_)
  match a with
  | ⟨0, _⟩ => show win1_7.index t (0 : Fin 1) * 2 + 1 * (y 0).val = (y 0).val; rw [e0]; omega

/-- Where entry `(p, q)` of point `t`'s first output block lies in its array. -/
theorem emb8 (t : Fin cfg1.N) (p : Fin 2000) (q : Fin 384) :
    ((cfg1.win 8).blk t).view.emb (ix2 p q) = ix2 (row t p) q := by
  obtain ⟨_, _, _, _, _, _, _, _, _, _, _, _, _, _, _, e0, e1, _⟩ := idx_facts t
  refine funext fun a => Fin.ext ?_
  match a with
  | ⟨0, _⟩ => show win1_8.index t (0 : Fin 2) * 2000 + 1 * p.val = t.val * 2000 + p.val; rw [e0]; omega
  | ⟨1, _⟩ => show win1_8.index t (1 : Fin 2) * 384 + 1 * q.val = q.val; rw [e1]; omega

/-- Where entry `(p, o)` of point `t`'s second output block lies in its array. -/
theorem emb9 (t : Fin cfg1.N) (p : Fin 2000) (o : Fin 2) :
    ((cfg1.win 9).blk t).view.emb (ix2 p o) = ix2 (row t p) o := by
  obtain ⟨_, _, _, _, _, _, _, _, _, _, _, _, _, _, _, _, _, e0, e1⟩ := idx_facts t
  refine funext fun a => Fin.ext ?_
  match a with
  | ⟨0, _⟩ => show win1_9.index t (0 : Fin 2) * 2000 + 1 * p.val = t.val * 2000 + p.val; rw [e0]; omega
  | ⟨1, _⟩ => show win1_9.index t (1 : Fin 2) * 2 + 1 * o.val = o.val; rw [e1]; omega

/-! ## What a point writes back, and the whole arrays -/

/-- WHAT POINT `t` WRITES BACK to the first output is its block of `layerOut`. -/
theorem flushed8_eq (c : Dev nD) (t : Fin cfg1.N) :
    (dat1 (F := Ideal) V c).flushed 8 t = ((cfg1.win 8).blk t).view.read (Elt Ideal) (layerOut V c) := by
  show (cfg1.win 8).cut (grid1.coords t) ((dat1 (F := Ideal) V c).after 8 t) = _
  rw [after1_8]
  unfold out1_8
  rw [View.canon_unit_zero hz2]
  simp only [View.ld_unit_zero (S := S2000x384) hz2, View.ld_unit_zero (S := S2000x1) hz2,
    View.ld_unit_zero (S := S384x384) hz2, View.ld_unit_zero (S := S384) hz1]
  funext j
  obtain ⟨p, q, rfl⟩ : ∃ (p : Fin 2000) (q : Fin 384), j = ix2 p q := ⟨j 0, j 1, eq_ix2 j⟩
  refine (Body.pay_layer2 (iblk1 V c 1 t) (iblk1 V c 0 t) (iblk1 V c 2 t) (iblk1 V c 3 t) (iblk1 V c 5 t)
    (iblk1 V c 4 t) p q).trans ?_
  refine Eq.trans ?_ (congrArg (layerOut V c) (emb8 t p q)).symm
  rw [rd3, rd4, rd5, rd1]
  simp only [rd0, rd2]
  rfl

/-- WHAT POINT `t` WRITES BACK to the second output is its block of `headOut`. -/
theorem flushed9_eq (c : Dev nD) (t : Fin cfg1.N) :
    (dat1 (F := Ideal) V c).flushed 9 t = ((cfg1.win 9).blk t).view.read (Elt Ideal) (headOut V c) := by
  show (cfg1.win 9).cut (grid1.coords t) ((dat1 (F := Ideal) V c).after 9 t) = _
  rw [after1_9]
  unfold out1_9
  rw [View.canon_unit_zero hz2]
  simp only [View.ld_unit_zero (S := S2000x384) hz2, View.ld_unit_zero (S := S2000x1) hz2,
    View.ld_unit_zero (S := S384x384) hz2, View.ld_unit_zero (S := S384) hz1,
    View.ld_unit_zero (S := S384x2) hz2, View.ld_unit_zero (S := S2) hz1]
  funext j
  obtain ⟨p, o, rfl⟩ : ∃ (p : Fin 2000) (o : Fin 2), j = ix2 p o := ⟨j 0, j 1, eq_ix2 j⟩
  refine (Body.pay_head (iblk1 V c 1 t) (iblk1 V c 0 t) (iblk1 V c 2 t) (iblk1 V c 3 t) (iblk1 V c 5 t)
    (iblk1 V c 4 t) (iblk1 V c 6 t) (iblk1 V c 7 t) p o).trans ?_
  refine Eq.trans ?_ (congrArg (headOut V c) (emb9 t p o)).symm
  rw [rd3, rd4, rd5, rd6, rd7, rd1]
  simp only [rd0, rd2]
  rfl

theorem mem_blk8 (t : Fin cfg1.N) (i : S50000x384.Idx) :
    i ∈ ((cfg1.win 8).blk t).view.set ↔ ∀ a : Fin 2, win1_8.index t a * S2000x384.size a ≤ (i a).val
      ∧ (i a).val < win1_8.index t a * S2000x384.size a + S2000x384.size a := by
  show i ∈ ((View.whole main_v36_0).slice (win1_8.rect t)).set ↔ _
  rw [View.set_slice_whole, Rect.mem_set_unit]
  exact Iff.rfl

theorem mem_blk9 (t : Fin cfg1.N) (i : S50000x2.Idx) :
    i ∈ ((cfg1.win 9).blk t).view.set ↔ ∀ a : Fin 2, win1_9.index t a * S2000x2.size a ≤ (i a).val
      ∧ (i a).val < win1_9.index t a * S2000x2.size a + S2000x2.size a := by
  show i ∈ ((View.whole main_v36_1).slice (win1_9.rect t)).set ↔ _
  rw [View.set_slice_whole, Rect.mem_set_unit]
  exact Iff.rfl

/-- The 25 blocks of 2000 rows fill the 50000 rows of the first output. -/
theorem cover8 (i : S50000x384.Idx) :
    ∃ t : Fin cfg1.N, (cfg1.win 8).flush t = true ∧ i ∈ ((cfg1.win 8).blk t).view.set := by
  have hi0 : (i 0).val < 50000 := (i 0).isLt
  have hi1 : (i 1).val < 384 := (i 1).isLt
  obtain ⟨t, ht⟩ := idx_onto ⟨(i 0).val / 2000, by omega⟩
  have ht' : t.val = (i 0).val / 2000 := ht
  obtain ⟨_, _, _, _, _, _, _, _, _, _, _, _, _, _, _, e0, e1, _⟩ := idx_facts t
  refine ⟨t, flush1_8 t, ?_⟩
  rw [mem_blk8]
  intro a
  match a with
  | ⟨0, _⟩ =>
    show win1_8.index t (0 : Fin 2) * 2000 ≤ (i 0).val ∧ (i 0).val < win1_8.index t (0 : Fin 2) * 2000 + 2000
    rw [e0]; omega
  | ⟨1, _⟩ =>
    show win1_8.index t (1 : Fin 2) * 384 ≤ (i 1).val ∧ (i 1).val < win1_8.index t (1 : Fin 2) * 384 + 384
    rw [e1]; omega

/-- The 25 blocks of 2000 rows fill the 50000 rows of the second output. -/
theorem cover9 (i : S50000x2.Idx) :
    ∃ t : Fin cfg1.N, (cfg1.win 9).flush t = true ∧ i ∈ ((cfg1.win 9).blk t).view.set := by
  have hi0 : (i 0).val < 50000 := (i 0).isLt
  have hi1 : (i 1).val < 2 := (i 1).isLt
  obtain ⟨t, ht⟩ := idx_onto ⟨(i 0).val / 2000, by omega⟩
  have ht' : t.val = (i 0).val / 2000 := ht
  obtain ⟨_, _, _, _, _, _, _, _, _, _, _, _, _, _, _, _, _, e0, e1⟩ := idx_facts t
  refine ⟨t, flush1_9 t, ?_⟩
  rw [mem_blk9]
  intro a
  match a with
  | ⟨0, _⟩ =>
    show win1_9.index t (0 : Fin 2) * 2000 ≤ (i 0).val ∧ (i 0).val < win1_9.index t (0 : Fin 2) * 2000 + 2000
    rw [e0]; omega
  | ⟨1, _⟩ =>
    show win1_9.index t (1 : Fin 2) * 2 ≤ (i 1).val ∧ (i 1).val < win1_9.index t (1 : Fin 2) * 2 + 2
    rw [e1]; omega

/-- THE FIRST ARRAY AFTER THE SECOND KERNEL is `layerOut` of the arrays as the kernel finds them. -/
theorem final8 (c : Dev nD) : (dat1 (F := Ideal) V c).arrAt 8 cfg1.N = layerOut V c :=
  (dat1 (F := Ideal) V c).arrAt_eq_of_cover 8 (layerOut V c) (fun t _ => flushed8_eq V c t) cover8

/-- THE SECOND ARRAY AFTER THE SECOND KERNEL is `headOut` of them. -/
theorem final9 (c : Dev nD) : (dat1 (F := Ideal) V c).arrAt 9 cfg1.N = headOut V c :=
  (dat1 (F := Ideal) V c).arrAt_eq_of_cover 9 (headOut V c) (fun t _ => flushed9_eq V c t) cover9

end Cert.KernelIdeal.Region1

end
-- ==== Proof.KHost.lean ====
/-
  The contents at each boundary of the kernel's program, and its two results as functions of the arguments.

  Before the first kernel the host gathers the nodes' rows along the edges, scales and sums them at the targets, and
  counts the edges into each node; the first kernel then finds those two arrays and the arguments, and leaves the first
  layer's rows. Before the second kernel the host does the same gathering and summing on the first layer's rows; the
  second kernel finds that array, the same counts, the first layer's rows and the arguments, and leaves the second
  layer's rows and the head's output. Read back to the launch contents, the two results are the functions `yFun` and
  `outFun` of the argument arrays — the same closed stages (the sum along the edges, the edge count) the reference uses,
  since the host operations that compute them are the same.
-/
import proofs.«157174_j90237262889600_1_alg».proof.Proof.Gen.KernelIdeal.Frame
import proofs.«157174_j90237262889600_1_alg».proof.Proof.KRegion0
import proofs.«157174_j90237262889600_1_alg».proof.Proof.KRegion1
import proofs.«157174_j90237262889600_1_alg».proof.Proof.RefValue
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat)
open Cert.GraphConv
open Cert.ReferenceIdeal.RefValue (agg cnt hidden yFun outFun)

variable (m : (ℓ : Loc nD τ sig) → Buf (Elt Ideal) ℓ) (ρ : Dev nD → PrngReg)

/-! ## What the first kernel finds -/

/-- The summed incoming rows of the nodes' own rows. -/
theorem entry0_sum (c : Dev nD) : V1 m ρ c main_v21
    = agg (m ((c : Thread nD τ).loc main_arg0)) (m ((c : Thread nD τ).loc main_arg1)) (m ((c : Thread nD τ).loc main_arg2)) := by
  show StableHlo.after hostOps0 (W0 m ρ c) (Proc.devRef .tc main_v21) = _
  after_results_simp <;> rfl

/-- The edge counts, as a column. -/
theorem entry0_cnt (c : Dev nD) : V1 m ρ c main_v8
    = shapeCast S50000x1 (cnt (m ((c : Thread nD τ).loc main_arg1))) shapeCasts_S50000_S50000x1 := by
  show StableHlo.after hostOps0 (W0 m ρ c) (Proc.devRef .tc main_v8) = _
  after_results_simp <;> rfl

/-- The sources and the targets of the edges, as the first host stretch leaves them. -/
theorem entry0_src (c : Dev nD) : W1 m ρ c (Proc.devRef .tc main_v1)
    = Cert.ReferenceIdeal.Read.val_main_v1 (F := Ideal) (m ((c : Thread nD τ).loc main_arg1)) := by
  show StableHlo.after hostOps0 (W0 m ρ c) (Proc.devRef .tc main_v1) = _
  after_results_simp <;> rfl
theorem entry0_dst (c : Dev nD) : W1 m ρ c (Proc.devRef .tc main_v3)
    = Cert.ReferenceIdeal.Read.val_main_v3 (F := Ideal) (m ((c : Thread nD τ).loc main_arg1)) := by
  show StableHlo.after hostOps0 (W0 m ρ c) (Proc.devRef .tc main_v3) = _
  after_results_simp <;> rfl

/-- Argument 0 is untouched by the first host stretch. -/
theorem entry0_arg0 (c : Dev nD) : W1 m ρ c (Proc.devRef .tc main_arg0) = m ((c : Thread nD τ).loc main_arg0) := by
  show StableHlo.after hostOps0 (W0 m ρ c) (Proc.devRef .tc main_arg0) = _
  after_results_simp <;> rfl
/-- Argument 2 is untouched by the first host stretch. -/
theorem entry0_arg2 (c : Dev nD) : W1 m ρ c (Proc.devRef .tc main_arg2) = m ((c : Thread nD τ).loc main_arg2) := by
  show StableHlo.after hostOps0 (W0 m ρ c) (Proc.devRef .tc main_arg2) = _
  after_results_simp <;> rfl
/-- Argument 3 is untouched by the first host stretch. -/
theorem entry0_arg3 (c : Dev nD) : W1 m ρ c (Proc.devRef .tc main_arg3) = m ((c : Thread nD τ).loc main_arg3) := by
  show StableHlo.after hostOps0 (W0 m ρ c) (Proc.devRef .tc main_arg3) = _
  after_results_simp <;> rfl
/-- Argument 4 is untouched by the first host stretch. -/
theorem entry0_arg4 (c : Dev nD) : W1 m ρ c (Proc.devRef .tc main_arg4) = m ((c : Thread nD τ).loc main_arg4) := by
  show StableHlo.after hostOps0 (W0 m ρ c) (Proc.devRef .tc main_arg4) = _
  after_results_simp <;> rfl
/-- Argument 5 is untouched by the first host stretch. -/
theorem entry0_arg5 (c : Dev nD) : W1 m ρ c (Proc.devRef .tc main_arg5) = m ((c : Thread nD τ).loc main_arg5) := by
  show StableHlo.after hostOps0 (W0 m ρ c) (Proc.devRef .tc main_arg5) = _
  after_results_simp <;> rfl
/-- Argument 6 is untouched by the first host stretch. -/
theorem entry0_arg6 (c : Dev nD) : W1 m ρ c (Proc.devRef .tc main_arg6) = m ((c : Thread nD τ).loc main_arg6) := by
  show StableHlo.after hostOps0 (W0 m ρ c) (Proc.devRef .tc main_arg6) = _
  after_results_simp <;> rfl
/-- Argument 7 is untouched by the first host stretch. -/
theorem entry0_arg7 (c : Dev nD) : W1 m ρ c (Proc.devRef .tc main_arg7) = m ((c : Thread nD τ).loc main_arg7) := by
  show StableHlo.after hostOps0 (W0 m ρ c) (Proc.devRef .tc main_arg7) = _
  after_results_simp <;> rfl
/-- Argument 8 is untouched by the first host stretch. -/
theorem entry0_arg8 (c : Dev nD) : W1 m ρ c (Proc.devRef .tc main_arg8) = m ((c : Thread nD τ).loc main_arg8) := by
  show StableHlo.after hostOps0 (W0 m ρ c) (Proc.devRef .tc main_arg8) = _
  after_results_simp <;> rfl
/-- Argument 9 is untouched by the first host stretch. -/
theorem entry0_arg9 (c : Dev nD) : W1 m ρ c (Proc.devRef .tc main_arg9) = m ((c : Thread nD τ).loc main_arg9) := by
  show StableHlo.after hostOps0 (W0 m ρ c) (Proc.devRef .tc main_arg9) = _
  after_results_simp <;> rfl
/-- Argument 10 is untouched by the first host stretch. -/
theorem entry0_arg10 (c : Dev nD) : W1 m ρ c (Proc.devRef .tc main_arg10) = m ((c : Thread nD τ).loc main_arg10) := by
  show StableHlo.after hostOps0 (W0 m ρ c) (Proc.devRef .tc main_arg10) = _
  after_results_simp <;> rfl

/-- The count column read at a node is the node's count. -/
theorem cnt_col (c : Dev nD) :
    (fun i : (⟨1, ![50000]⟩ : Shape).Idx => V1 m ρ c main_v8 (ix2 (i 0) (0 : Fin 1))) = cnt (m ((c : Thread nD τ).loc main_arg1)) := by
  funext i
  rw [entry0_cnt]
  obtain ⟨r, rfl⟩ : ∃ r : Fin 50000, i = ix1 r := ⟨i 0, eq_ix1 i⟩
  exact LibKeepdims.shapeCast_a_a1_apply (cnt (m ((c : Thread nD τ).loc main_arg1))) shapeCasts_S50000_S50000x1 r 0

/-- THE FIRST KERNEL LEAVES the first layer's rows. -/
theorem after0 (c : Dev nD) : W2 m ρ c (Proc.devRef .tc main_v22)
    = hidden (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W2_arr m ρ c 6).trans ((Region0.final6 (V1 m ρ) c).trans ?_)
  unfold Region0.layerOut
  rw [cnt_col, entry0_sum]
  rw [show V1 m ρ c main_arg0 = m ((c : Thread nD τ).loc main_arg0) from entry0_arg0 m ρ c,
    show V1 m ρ c main_arg3 = m ((c : Thread nD τ).loc main_arg3) from entry0_arg3 m ρ c,
    show V1 m ρ c main_arg4 = m ((c : Thread nD τ).loc main_arg4) from entry0_arg4 m ρ c,
    show V1 m ρ c main_arg5 = m ((c : Thread nD τ).loc main_arg5) from entry0_arg5 m ρ c]
  rfl

/-! ## What the second kernel finds -/

/-- A buffer that is none of the first kernel's arrays passes through it. -/
theorem thru0_v1 (c : Dev nD) : W2 m ρ c (Proc.devRef .tc main_v1) = W1 m ρ c (Proc.devRef .tc main_v1) :=
  W2_of_ne m ρ c main_v1 (by decide)
theorem thru0_v3 (c : Dev nD) : W2 m ρ c (Proc.devRef .tc main_v3) = W1 m ρ c (Proc.devRef .tc main_v3) :=
  W2_of_ne m ρ c main_v3 (by decide)
theorem thru0_arg2 (c : Dev nD) : W2 m ρ c (Proc.devRef .tc main_arg2) = m ((c : Thread nD τ).loc main_arg2) :=
  (W2_of_ne m ρ c main_arg2 (by decide)).trans (entry0_arg2 m ρ c)
theorem thru0_arg6 (c : Dev nD) : W2 m ρ c (Proc.devRef .tc main_arg6) = m ((c : Thread nD τ).loc main_arg6) :=
  (W2_of_ne m ρ c main_arg6 (by decide)).trans (entry0_arg6 m ρ c)
theorem thru0_arg7 (c : Dev nD) : W2 m ρ c (Proc.devRef .tc main_arg7) = m ((c : Thread nD τ).loc main_arg7) :=
  (W2_of_ne m ρ c main_arg7 (by decide)).trans (entry0_arg7 m ρ c)
theorem thru0_arg8 (c : Dev nD) : W2 m ρ c (Proc.devRef .tc main_arg8) = m ((c : Thread nD τ).loc main_arg8) :=
  (W2_of_ne m ρ c main_arg8 (by decide)).trans (entry0_arg8 m ρ c)
theorem thru0_arg9 (c : Dev nD) : W2 m ρ c (Proc.devRef .tc main_arg9) = m ((c : Thread nD τ).loc main_arg9) :=
  (W2_of_ne m ρ c main_arg9 (by decide)).trans (entry0_arg9 m ρ c)
theorem thru0_arg10 (c : Dev nD) : W2 m ρ c (Proc.devRef .tc main_arg10) = m ((c : Thread nD τ).loc main_arg10) :=
  (W2_of_ne m ρ c main_arg10 (by decide)).trans (entry0_arg10 m ρ c)
/-- The count column is an input of the first kernel: it passes through unchanged. -/
theorem thru0_cnt (c : Dev nD) : W2 m ρ c (Proc.devRef .tc main_v8) = V1 m ρ c main_v8 :=
  (W2_arr m ρ c 1).trans (((dat0 (V1 m ρ) c).arrAt_in 1 rfl _).trans (A_eq0 (V1 m ρ) c 1))

/-- The summed incoming rows of the first layer's rows. -/
theorem entry1_sum (c : Dev nD) : V3 m ρ c main_v35
    = agg (W2 m ρ c (Proc.devRef .tc main_v22)) (m ((c : Thread nD τ).loc main_arg1)) (m ((c : Thread nD τ).loc main_arg2)) := by
  show StableHlo.after hostOps1 (W2 m ρ c) (Proc.devRef .tc main_v35) = _
  after_results_simp
  rw [thru0_v1, thru0_v3, thru0_arg2, entry0_src, entry0_dst]
  rfl

theorem entry1_cnt (c : Dev nD) : V3 m ρ c main_v8 = V1 m ρ c main_v8 := by
  show StableHlo.after hostOps1 (W2 m ρ c) (Proc.devRef .tc main_v8) = _
  after_results_simp <;> exact thru0_cnt m ρ c

theorem entry1_rows (c : Dev nD) : V3 m ρ c main_v22 = W2 m ρ c (Proc.devRef .tc main_v22) := by
  show StableHlo.after hostOps1 (W2 m ρ c) (Proc.devRef .tc main_v22) = _
  after_results_simp

theorem entry1_arg6 (c : Dev nD) : V3 m ρ c main_arg6 = m ((c : Thread nD τ).loc main_arg6) := by
  show StableHlo.after hostOps1 (W2 m ρ c) (Proc.devRef .tc main_arg6) = _
  after_results_simp <;> exact thru0_arg6 m ρ c
theorem entry1_arg7 (c : Dev nD) : V3 m ρ c main_arg7 = m ((c : Thread nD τ).loc main_arg7) := by
  show StableHlo.after hostOps1 (W2 m ρ c) (Proc.devRef .tc main_arg7) = _
  after_results_simp <;> exact thru0_arg7 m ρ c
theorem entry1_arg8 (c : Dev nD) : V3 m ρ c main_arg8 = m ((c : Thread nD τ).loc main_arg8) := by
  show StableHlo.after hostOps1 (W2 m ρ c) (Proc.devRef .tc main_arg8) = _
  after_results_simp <;> exact thru0_arg8 m ρ c
theorem entry1_arg9 (c : Dev nD) : V3 m ρ c main_arg9 = m ((c : Thread nD τ).loc main_arg9) := by
  show StableHlo.after hostOps1 (W2 m ρ c) (Proc.devRef .tc main_arg9) = _
  after_results_simp <;> exact thru0_arg9 m ρ c
theorem entry1_arg10 (c : Dev nD) : V3 m ρ c main_arg10 = m ((c : Thread nD τ).loc main_arg10) := by
  show StableHlo.after hostOps1 (W2 m ρ c) (Proc.devRef .tc main_arg10) = _
  after_results_simp <;> exact thru0_arg10 m ρ c

theorem cnt_col1 (c : Dev nD) :
    (fun i : (⟨1, ![50000]⟩ : Shape).Idx => V3 m ρ c main_v8 (ix2 (i 0) (0 : Fin 1))) = cnt (m ((c : Thread nD τ).loc main_arg1)) := by
  rw [entry1_cnt]
  exact cnt_col m ρ c

/-- THE SECOND KERNEL'S FIRST OUTPUT, as it finds its arrays, is `yFun` of the arguments. -/
theorem layer2_eq (c : Dev nD) : Region1.layerOut (V3 m ρ) c
    = yFun (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  unfold Region1.layerOut
  rw [cnt_col1, entry1_sum, entry1_rows, after0, entry1_arg6, entry1_arg7, entry1_arg8]
  rfl

/-! ## The two results -/

/-- THE SECOND RESULT (the second layer's rows) is `yFun` of the arguments. -/
theorem result_y (c : Dev nD) : W4 m ρ c (Proc.devRef .tc main_v36_0)
    = yFun (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) :=
  (W4_arr m ρ c 8).trans ((Region1.final8 (V3 m ρ) c).trans (layer2_eq m ρ c))

/-- THE FIRST RESULT (the head's output) is `outFun` of the arguments. -/
theorem result_out (c : Dev nD) : W4 m ρ c (Proc.devRef .tc main_v36_1)
    = outFun (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) := by
  refine (W4_arr m ρ c 9).trans ((Region1.final9 (V3 m ρ) c).trans ?_)
  unfold Region1.headOut
  rw [layer2_eq, entry1_arg9, entry1_arg10]
  rfl

end Cert.KernelIdeal.Host

end
-- ==== Proof.lean ====
/-
  A two-layer graph convolution with mean aggregation and a sigmoid head: the kernel's program and the reference
  compute the same two arrays at the extended reals.

  Both programs gather the nodes' feature rows along the edges, scale them by the edge weights and sum them at the
  edges' targets, and count the edges into each node — the same host operations, carried here as two closed functions
  of their operands. A layer then sends node `r` to `relu ((s r / max (n r) 1) · W_rel + b + x r · W_root)`; the second
  layer is the same on the first layer's rows, and the head is `sigmoid (y r · W_lin + b_lin)`.
  The kernel's program does a layer in a kernel over 25 blocks of 2000 node rows: it multiplies the summed row by the
  reciprocal `1 / max (n r) 1` where the reference divides by `max (n r) 1` — the same on every extended real, the
  divisor never being zero —, takes its products in a narrower float format (the identity at the extended reals) into a
  zero accumulator (the plain sum of products), and its sigmoid is the reference's `1 / (1 + e^(-z))` by definition.
  So both programs end with `yFun` and `outFun` of the argument arrays (Proof/RefValue.lean), the kernel's by reading
  its run block by block (Proof/KBody.lean, KRegion0.lean, KRegion1.lean, KHost.lean, KRun.lean), the reference's by
  reading its run operation by operation. No finiteness of the inputs is used.
-/
import proofs.«157174_j90237262889600_1_alg».proof.Defs
import proofs.«157174_j90237262889600_1_alg».proof.Proof.Gen.Kernel
import proofs.«157174_j90237262889600_1_alg».proof.Proof.Gen.Kernel.Skeleton
import proofs.«157174_j90237262889600_1_alg».proof.Proof.Gen.Kernel.Launch
import proofs.«157174_j90237262889600_1_alg».proof.Proof.Gen.Kernel.Points
import proofs.«157174_j90237262889600_1_alg».proof.Proof.Gen.Kernel.Frame
import proofs.«157174_j90237262889600_1_alg».proof.Proof.Gen.KernelIdeal
import proofs.«157174_j90237262889600_1_alg».proof.Proof.Gen.KernelIdeal.Skeleton
import proofs.«157174_j90237262889600_1_alg».proof.Proof.Gen.KernelIdeal.Launch
import proofs.«157174_j90237262889600_1_alg».proof.Proof.Gen.KernelIdeal.Points
import proofs.«157174_j90237262889600_1_alg».proof.Proof.Gen.KernelIdeal.Frame
import proofs.«157174_j90237262889600_1_alg».proof.Proof.Gen.ReferenceIdeal
import proofs.«157174_j90237262889600_1_alg».proof.Proof.Gen.Pre_finite_inputs
import proofs.«157174_j90237262889600_1_alg».proof.Proof.Gen.ReferenceIdeal.Run
import proofs.«157174_j90237262889600_1_alg».proof.Proof.Gen.ReferenceIdeal.Read
import proofs.«157174_j90237262889600_1_alg».proof.Proof.RefValue
import proofs.«157174_j90237262889600_1_alg».proof.Proof.KRun
import proofs.«157174_j90237262889600_1_alg».proof.Proof.KHost
import Idealize.ShloMosaic.Adequacy
import Idealize.ShloMosaic.Init

noncomputable section

namespace Cert.Proof

open Idealize.ShloMosaic Idealize.SL.Sem
open Cert.ReferenceIdeal.RefValue (yFun outFun)

/-- The kernel's program as printed runs and keeps its arguments: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its generated run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the arguments both idealized programs end with the head's output `outFun` and the second
    layer's rows `yFun` of the argument arrays. -/
theorem algebraic : Cert.algebraic_KernelIdeal_ReferenceIdeal := by
  intro m ρ m' ρ' _ hagree
  refine ⟨fun c => outFun
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10)),
      fun c => yFun
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Host.result_out m ρ c),
        (h c).2.1.trans (Cert.KernelIdeal.Host.result_y m ρ c), (h c).2.2⟩)
      (Cert.KernelIdeal.Run.run_results (F := Ideal) m ρ)
  · refine (θ_run Cert.ReferenceIdeal.defs _ _).mono (fun r h c => ⟨?_, ?_, (h c).2.2⟩)
      (Cert.ReferenceIdeal.Value.run (F := Ideal) m' ρ')
    · refine (h c).1.trans ?_
      obtain ⟨e0, e1, e2, e3, e4, e5, e6, e7, e8, e9, e10⟩ := hagree c
      rw [Cert.ReferenceIdeal.Read.val_main_v75_eq, Cert.ReferenceIdeal.RefValue.ref_out, e0, e1, e2, e3, e4, e5, e6, e7,
        e8, e9, e10]
    · refine (h c).2.1.trans ?_
      obtain ⟨e0, e1, e2, e3, e4, e5, e6, e7, e8, _, _⟩ := hagree c
      rw [Cert.ReferenceIdeal.Read.val_main_v65_eq, Cert.ReferenceIdeal.RefValue.ref_y, e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
